-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x256x256 : Shape := ⟨4, ![16, 64, 256, 256]⟩
abbrev S16x512x256 : Shape := ⟨3, ![16, 512, 256]⟩
abbrev S256x32 : Shape := ⟨2, ![256, 32]⟩
abbrev S32 : Shape := ⟨1, ![32]⟩
abbrev S16x512x2 : Shape := ⟨3, ![16, 512, 2]⟩
abbrev S_ : Shape := ⟨0, ![]⟩

class Facts : Prop where
  bcast_S_S16x64x256x256 : S_.BroadcastsInDim S16x64x256x256 (![] : Fin 0 → Fin S16x64x256x256.rank)
  reducesTo_S16x64x256x256_S_d0_1_2_3 : S16x64x256x256.ReducesTo [0, 1, 2, 3] S_
  h_S_ : 0 < S_.numel
  bcast_S_S16x512x256 : S_.BroadcastsInDim S16x512x256 (![] : Fin 0 → Fin S16x512x256.rank)
  reducesTo_S16x512x256_S_d0_1_2 : S16x512x256.ReducesTo [0, 1, 2] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : FVec F S16x64x256x256 .f32) (main_arg1 : FVec F S16x512x256 .f32) (main_arg2 : FVec F S256x32 .f32) (main_arg3 : FVec F S32 .f32) (main_arg4 : IVec S16x512x2 32) : IVec S_ 1 :=
  let main_v0 : FVec F S16x64x256x256 .f32 := Host.absf main_arg0
  let main_cst : FVec F S_ .f32 := constant S_ .f32 0x7F800000#32
  let main_v1 : FVec F S16x64x256x256 .f32 := broadcastInDim S16x64x256x256 ![] bcast_S_S16x64x256x256 main_cst
  let main_v2 : IVec S16x64x256x256 1 := cmpf .olt main_v0 main_v1
  let main_c : IVec S_ 1 := constantI S_ 1 1#1
  let main_v3 : IVec S_ 1 := (fun x v => Host.reduce IntOp.andi x v reducesTo_S16x64x256x256_S_d0_1_2_3 h_S_) main_v2 main_c
  let main_v4 : FVec F S16x512x256 .f32 := Host.absf main_arg1
  let main_cst_0 : FVec F S_ .f32 := constant S_ .f32 0x7F800000#32
  let main_v5 : FVec F S16x512x256 .f32 := broadcastInDim S16x512x256 ![] bcast_S_S16x512x256 main_cst_0
  let main_v6 : IVec S16x512x256 1 := cmpf .olt main_v4 main_v5
  let main_c_1 : IVec S_ 1 := constantI S_ 1 1#1
  let main_v7 : IVec S_ 1 := (fun x v => Host.reduce IntOp.andi x v reducesTo_S16x512x256_S_d0_1_2 h_S_) main_v6 main_c_1
  let main_v8 : IVec S_ 1 := andi main_v3 main_v7
  let main_v9 : FVec F S256x32 .f32 := Host.absf main_arg2
  let main_cst_2 : FVec F S_ .f32 := constant S_ .f32 0x7F800000#32
  let main_v10 : FVec F S256x32 .f32 := broadcastInDim S256x32 ![] bcast_S_S256x32 main_cst_2
  let main_v11 : IVec S256x32 1 := cmpf .olt main_v9 main_v10
  let main_c_3 : IVec S_ 1 := constantI S_ 1 1#1
  let main_v12 : IVec S_ 1 := (fun x v => Host.reduce IntOp.andi x v reducesTo_S256x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S16x64x256x256 : Shape := ⟨4, ![16, 64, 256, 256]⟩
abbrev S16x512x256 : Shape := ⟨3, ![16, 512, 256]⟩
abbrev S256x32 : Shape := ⟨2, ![256, 32]⟩
abbrev S32 : Shape := ⟨1, ![32]⟩
abbrev S16x512x2 : Shape := ⟨3, ![16, 512, 2]⟩
abbrev S1x32 : Shape := ⟨2, ![1, 32]⟩
abbrev S16x512x32 : Shape := ⟨3, ![16, 512, 32]⟩
abbrev S1x512x256 : Shape := ⟨3, ![1, 512, 256]⟩
abbrev S1x512x32 : Shape := ⟨3, ![1, 512, 32]⟩
abbrev S512x256 : Shape := ⟨2, ![512, 256]⟩
abbrev S512x32 : Shape := ⟨2, ![512, 32]⟩
abbrev S16x512x1 : Shape := ⟨3, ![16, 512, 1]⟩
abbrev S16x512 : Shape := ⟨2, ![16, 512]⟩
abbrev S_ : Shape := ⟨0, ![]⟩
abbrev S16x65536x32 : Shape := ⟨3, ![16, 65536, 32]⟩
abbrev S16 : Shape := ⟨1, ![16]⟩
abbrev S16x1 : Shape := ⟨2, ![16, 1]⟩
abbrev S16x64x65536 : Shape := ⟨3, ![16, 64, 65536]⟩
abbrev S16x96x65536 : Shape := ⟨3, ![16, 96, 65536]⟩
abbrev S1x64x4096 : Shape := ⟨3, ![1, 64, 4096]⟩
abbrev S1x4096x32 : Shape := ⟨3, ![1, 4096, 32]⟩
abbrev S1x96x4096 : Shape := ⟨3, ![1, 96, 4096]⟩
abbrev S64x4096 : Shape := ⟨2, ![64, 4096]⟩
abbrev S4096x32 : Shape := ⟨2, ![4096, 32]⟩
abbrev S32x4096 : Shape := ⟨2, ![32, 4096]⟩
abbrev S1x32x4096 : Shape := ⟨3, ![1, 32, 4096]⟩
abbrev S16x96x256x256 : Shape := ⟨4, ![16, 96, 256, 256]⟩

abbrev nBuf : Space → Nat
  | .hbm => 57
  | .vmem => 12
  | .smem => 0
  | _ => 0

abbrev bufTy : (tb : Table) → Fin (tcTables nBuf tb) → BufTy
  | .hbm, ⟨0, _⟩ => ⟨S16x64x256x256, .f32⟩
  | .hbm, ⟨1, _⟩ => ⟨S16x512x256, .f32⟩
  | .hbm, ⟨2, _⟩ => ⟨S256x32, .f32⟩
  | .hbm, ⟨3, _⟩ => ⟨S32, .f32⟩
  | .hbm, ⟨4, _⟩ => ⟨S16x512x2, .i32⟩
  | .hbm, ⟨5, _⟩ => ⟨S1x32, .f32⟩
  | .hbm, ⟨6, _⟩ => ⟨S16x512x32, .f32⟩
  | .hbm, ⟨7, _⟩ => ⟨S16x512x1, .i32⟩
  | .hbm, ⟨8, _⟩ => ⟨S16x512, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S16x512, .i32⟩
  | .hbm, ⟨13, _⟩ => ⟨S16x512, .i32⟩
  | .hbm, ⟨14, _⟩ => ⟨S_, .i32⟩
  | .hbm, ⟨15, _⟩ => ⟨S16x512, .i32⟩
  | .hbm, ⟨16, _⟩ => ⟨S16x512, .i32⟩
  | .hbm, ⟨17, _⟩ => ⟨S16x512x1, .i32⟩
  | .hbm, ⟨18, _⟩ => ⟨S16x512, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S16x512, .i32⟩
  | .hbm, ⟨23, _⟩ => ⟨S16x512, .i32⟩
  | .hbm, ⟨24, _⟩ => ⟨S_, .i32⟩
  | .hbm, ⟨25, _⟩ => ⟨S16x512, .i32⟩
  | .hbm, ⟨26, _⟩ => ⟨S16x512, .i32⟩
  | .hbm, ⟨27, _⟩ => ⟨S_, .i32⟩
  | .hbm, ⟨28, _⟩ => ⟨S16x512, .i32⟩
  | .hbm, ⟨29, _⟩ => ⟨S16x512, .i32⟩
  | .hbm, ⟨30, _⟩ => ⟨S16x512, .i32⟩
  | .hbm, ⟨31, _⟩ => ⟨S_, .f32⟩
  | .hbm, ⟨32, _⟩ => ⟨S16x65536x32, .f32⟩
  | .hbm, ⟨33, _⟩ => ⟨S16, .i32⟩
  | .hbm, ⟨34, _⟩ => ⟨S16x1, .i32⟩
  | .hbm, ⟨35, _⟩ => ⟨S_, .i32⟩
  | .hbm, ⟨36, _⟩ => ⟨S16x1, .i32⟩
  | .hbm, ⟨37, _⟩ => ⟨S16x1, .i1⟩
  | .hbm, ⟨38, _⟩ => ⟨S_, .i32⟩
  | .hbm, ⟨39, _⟩ => ⟨S16x1, .i32⟩
  | .hbm, ⟨40, _⟩ => ⟨S16x1, .i32⟩
  | .hbm, ⟨41, _⟩ => ⟨S16x1, .i32⟩
  | .hbm, ⟨42, _⟩ => ⟨S_, .i32⟩
  | .hbm, ⟨43, _⟩ => ⟨S16x512, .i32⟩
  | .hbm, ⟨44, _⟩ => ⟨S16x512, .i1⟩
  | .hbm, ⟨45, _⟩ => ⟨S_, .i32⟩
  | .hbm, ⟨46, _⟩ => ⟨S16x512, .i32⟩
  | .hbm, ⟨47, _⟩ => ⟨S16x512, .i32⟩
  | .hbm, ⟨48, _⟩ => ⟨S16x512, .i32⟩
  | .hbm, ⟨49, _⟩ => ⟨S16x512, .i32⟩
  | .hbm, ⟨50, _⟩ => ⟨S16x512x1, .i32⟩
  | .hbm, ⟨51, _⟩ => ⟨S16x512x1, .i32⟩
  | .hbm, ⟨52, _⟩ => ⟨S16x512x2, .i32⟩
  | .hbm, ⟨53, _⟩ => ⟨S16x65536x32, .f32⟩
  | .hbm, ⟨54, _⟩ => ⟨S16x64x65536, .f32⟩
  | .hbm, ⟨55, _⟩ => ⟨S16x96x65536, .f32⟩
  | .hbm, ⟨56, _⟩ => ⟨S16x96x256x256, .f32⟩
  | .local _ .vmem, ⟨0, _⟩ => ⟨S1x512x256, .f32⟩
  | .local _ .vmem, ⟨1, _⟩ => ⟨S1x512x256, .f32⟩
  | .local _ .vmem, ⟨2, _⟩ => ⟨S256x32, .f32⟩
  | .local _ .vmem, ⟨3, _⟩ => ⟨S1x32, .f32⟩
  | .local _ .vmem, ⟨4, _⟩ => ⟨S1x512x32, .f32⟩
  | .local _ .vmem, ⟨5, _⟩ => ⟨S1x512x32, .f32⟩
  | .local _ .vmem, ⟨6, _⟩ => ⟨S1x64x4096, .f32⟩
  | .local _ .vmem, ⟨7, _⟩ => ⟨S1x64x4096, .f32⟩
  | .local _ .vmem, ⟨8, _⟩ => ⟨S1x4096x32, .f32⟩
  | .local _ .vmem, ⟨9, _⟩ => ⟨S1x4096x32, .f32⟩
  | .local _ .vmem, ⟨10, _⟩ => ⟨S1x96x4096, .f32⟩
  | .local _ .vmem, ⟨11, _⟩ => ⟨S1x96x4096, .f32⟩
  | _, _ => ⟨S16x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_c_2 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v7 : Ref sig .tc := ⟨.hbm, 26, rfl⟩
abbrev main_c_3 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_4 : Ref sig .tc := ⟨.hbm, 35, rfl⟩
abbrev main_v14 : Ref sig .tc := ⟨.hbm, 36, rfl⟩
abbrev main_v15 : Ref sig .tc := ⟨.hbm, 37, rfl⟩
abbrev main_c_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c_6 : Ref sig .tc := ⟨.hbm, 42, rfl⟩
abbrev main_v19 : Ref sig .tc := ⟨.hbm, 43, rfl⟩
abbrev main_v20 : Ref sig .tc := ⟨.hbm, 44, rfl⟩
abbrev main_c_7 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x64x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x96x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S32_S1x32 : S32.ShapeCasts S1x32
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  inb_S1x512x32_S1x512x32_0_0_0 : ∀ a, (![0, 0, 0] : Fin 3 → Nat) a + S1x512x32.size a ≤ S1x512x32.size a
  h_S1x512x32 : 0 < S1x512x32.numel
  shapeCasts_S1x512x32_S512x32 : S1x512x32.ShapeCasts S512x32
  shapeCasts_S512x32_S1x512x32 : S512x32.ShapeCasts S1x512x32
  slices_S16x512x2_S16x512x1_0_0_0 : S16x512x2.Slices ![0, 0, 0] S16x512x1
  shapeCasts_S16x512x1_S16x512 : S16x512x1.ShapeCasts S16x512
  bcast_S_S16x512 : S_.BroadcastsInDim S16x512 (![] : Fin 0 → Fin S16x512.rank)
  slices_S16x512x2_S16x512x1_0_0_1 : S16x512x2.Slices ![0, 0, 1] S16x512x1
  bcast_S_S16x65536x32 : S_.BroadcastsInDim S16x65536x32 (![] : Fin 0 → Fin S16x65536x32.rank)
  bcast_S16_S16x1_0 : S16.BroadcastsInDim S16x1 (![0] : Fin 1 → Fin S16x1.rank)
  bcast_S_S16x1 : S_.BroadcastsInDim S16x1 (![] : Fin 0 → Fin S16x1.rank)
  bcast_S16x1_S16x512_0_1 : S16x1.BroadcastsInDim S16x512 (![0, 1] : Fin 2 → Fin S16x512.rank)
  bcast_S16x512_S16x512x1_0_1 : S16x512.BroadcastsInDim S16x512x1 (![0, 1] : Fin 2 → Fin S16x512x1.rank)
  concatenates_S16x512x1_S16x512x1_S16x512x2_d2 : Shape.Concatenates [S16x512x1, S16x512x1] S16x512x2 2
  shapeCasts_S16x64x256x256_S16x64x65536 : S16x64x256x256.ShapeCasts S16x64x65536
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  inb_S1x4096x32_S1x4096x32_0_0_0 : ∀ a, (![0, 0, 0] : Fin 3 → Nat) a + S1x4096x32.size a ≤ S1x4096x32.size a
  h_S1x4096x32 : 0 < S1x4096x32.numel
  shapeCasts_S1x4096x32_S4096x32 : S1x4096x32.ShapeCasts S4096x32
  transposes_S4096x32_p1_0_S32x4096 : S4096x32.Transposes [1, 0] S32x4096
  inb_S1x96x4096_S1x64x4096_0_0_0 : ∀ a, (![0, 0, 0] : Fin 3 → Nat) a + S1x64x4096.size a ≤ S1x96x4096.size a
  shapeCasts_S64x4096_S1x64x4096 : S64x4096.ShapeCasts S1x64x4096
  inb_S1x96x4096_S1x32x4096_0_64_0 : ∀ a, (![0, 64, 0] : Fin 3 → Nat) a + S1x32x4096.size a ≤ S1x96x4096.size a
  h_S1x32x4096 : 0 < S1x32x4096.numel
  shapeCasts_S1x32x4096_S32x4096 : S1x32x4096.ShapeCasts S32x4096
  shapeCasts_S32x4096_S1x32x4096 : S32x4096.ShapeCasts S1x32x4096
  shapeCasts_S16x96x65536_S16x96x256x256 : S16x96x65536.ShapeCasts S16x96x256x256
  dot_S512x256_S256x32_S512x32_1_0_0_1_n_n_wf : DotDims.WF S512x256 S256x32 S512x32 [1] [0] [0] [1] [] []
  scatter_S16x65536x32_S16x512x2_S16x512x32_2_01_01_2_wf : ScatterDims.WF S16x65536x32 S16x512x2 S16x512x32 [2] [0, 1] [0, 1] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S16x512x256.size a
  hwx0_0 : ∀ i : grid0.Coords, EltTy.bits .f32 = 32 ∨ (Rect.block (s := S16x512x256) S1x512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x32.size a ≤ S16x512x32.size a
  hwx0_3 : ∀ i : grid0.Coords, EltTy.bits .f32 = 32 ∨ (Rect.block (s := S16x512x32) S1x512x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x4096.size a ≤ S16x64x65536.size a
  hwx1_0 : ∀ i : grid1.Coords, EltTy.bits .f32 = 32 ∨ (Rect.block (s := S16x64x65536) S1x64x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x32.size a ≤ S16x65536x32.size a
  hwx1_1 : ∀ i : grid1.Coords, EltTy.bits .f32 = 32 ∨ (Rect.block (s := S16x65536x32) S1x4096x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x96x4096.size a ≤ S16x96x65536.size a
  hwx1_2 : ∀ i : grid1.Coords, EltTy.bits .f32 = 32 ∨ (Rect.block (s := S16x96x65536) S1x96x4096.size (cc1_transform_2 i) (hinb1_2 i)).WholeWords (EltTy.packing .f32)

variable [Facts₀]

def dot_S512x256_S256x32_S512x32_1_0_0_1_n_n : DotDims S512x256 S256x32 S512x32 where
  lhsContracting := [1]
  rhsContracting := [0]
  lhsNonContracting := [0]
  rhsNonContracting := [1]
  lhsBatch := []
  rhsBatch := []
  wf := dot_S512x256_S256x32_S512x32_1_0_0_1_n_n_wf
def scatter_S16x65536x32_S16x512x2_S16x512x32_2_01_01_2 : ScatterDims S16x65536x32 S16x512x2 S16x512x32 where
  updateWindowDims := [2]
  insertedWindowDims := [0, 1]
  scatterDimsToOperandDims := [0, 1]
  indexVectorDim := 2
  wf := scatter_S16x65536x32_S16x512x2_S16x512x32_2_01_01_2_wf

abbrev win0_0 : Pipeline.Window sig grid0 :=
  Pipeline.Window.ofSpec (Memref.whole main_arg1) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S1x64x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1x4096x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x96x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x64x256x256 : Shape := ⟨4, ![16, 64, 256, 256]⟩
abbrev S16x512x256 : Shape := ⟨3, ![16, 512, 256]⟩
abbrev S256x32 : Shape := ⟨2, ![256, 32]⟩
abbrev S32 : Shape := ⟨1, ![32]⟩
abbrev S16x512x2 : Shape := ⟨3, ![16, 512, 2]⟩
abbrev S16x512x32 : Shape := ⟨3, ![16, 512, 32]⟩
abbrev S1x1x32 : Shape := ⟨3, ![1, 1, 32]⟩
abbrev S16x512x1 : Shape := ⟨3, ![16, 512, 1]⟩
abbrev S16x512 : Shape := ⟨2, ![16, 512]⟩
abbrev S_ : Shape := ⟨0, ![]⟩
abbrev S16x65536x32 : Shape := ⟨3, ![16, 65536, 32]⟩
abbrev S16 : Shape := ⟨1, ![16]⟩
abbrev S16x1 : Shape := ⟨2, ![16, 1]⟩
abbrev S16x256x256x32 : Shape := ⟨4, ![16, 256, 256, 32]⟩
abbrev S16x32x256x256 : Shape := ⟨4, ![16, 32, 256, 256]⟩
abbrev S16x96x256x256 : Shape := ⟨4, ![16, 96, 256, 256]⟩

abbrev nBuf : Space → Nat
  | .hbm => 59
  | .vmem => 0
  | .smem => 0
  | _ => 0

abbrev bufTy : (tb : Table) → Fin (tcTables nBuf tb) → BufTy
  | .hbm, ⟨0, _⟩ => ⟨S16x64x256x256, .f32⟩
  | .hbm, ⟨1, _⟩ => ⟨S16x512x256, .f32⟩
  | .hbm, ⟨2, _⟩ => ⟨S256x32, .f32⟩
  | .hbm, ⟨3, _⟩ => ⟨S32, .f32⟩
  | .hbm, ⟨4, _⟩ => ⟨S16x512x2, .i32⟩
  | .hbm, ⟨5, _⟩ => ⟨S16x512x32, .f32⟩
  | .hbm, ⟨6, _⟩ => ⟨S1x1x32, .f32⟩
  | .hbm, ⟨7, _⟩ => ⟨S16x512x32, .f32⟩
  | .hbm, ⟨8, _⟩ => ⟨S16x512x32, .f32⟩
  | .hbm, ⟨9, _⟩ => ⟨S16x512x1, .i32⟩
  | .hbm, ⟨10, _⟩ => ⟨S16x512, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S16x512, .i32⟩
  | .hbm, ⟨15, _⟩ => ⟨S16x512, .i32⟩
  | .hbm, ⟨16, _⟩ => ⟨S_, .i32⟩
  | .hbm, ⟨17, _⟩ => ⟨S16x512, .i32⟩
  | .hbm, ⟨18, _⟩ => ⟨S16x512, .i32⟩
  | .hbm, ⟨19, _⟩ => ⟨S16x512x1, .i32⟩
  | .hbm, ⟨20, _⟩ => ⟨S16x512, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S16x512, .i32⟩
  | .hbm, ⟨25, _⟩ => ⟨S16x512, .i32⟩
  | .hbm, ⟨26, _⟩ => ⟨S_, .i32⟩
  | .hbm, ⟨27, _⟩ => ⟨S16x512, .i32⟩
  | .hbm, ⟨28, _⟩ => ⟨S16x512, .i32⟩
  | .hbm, ⟨29, _⟩ => ⟨S_, .i32⟩
  | .hbm, ⟨30, _⟩ => ⟨S16x512, .i32⟩
  | .hbm, ⟨31, _⟩ => ⟨S16x512, .i32⟩
  | .hbm, ⟨32, _⟩ => ⟨S16x512, .i32⟩
  | .hbm, ⟨33, _⟩ => ⟨S_, .f32⟩
  | .hbm, ⟨34, _⟩ => ⟨S16x65536x32, .f32⟩
  | .hbm, ⟨35, _⟩ => ⟨S16, .i32⟩
  | .hbm, ⟨36, _⟩ => ⟨S16x1, .i32⟩
  | .hbm, ⟨37, _⟩ => ⟨S_, .i32⟩
  | .hbm, ⟨38, _⟩ => ⟨S16x1, .i32⟩
  | .hbm, ⟨39, _⟩ => ⟨S16x1, .i1⟩
  | .hbm, ⟨40, _⟩ => ⟨S_, .i32⟩
  | .hbm, ⟨41, _⟩ => ⟨S16x1, .i32⟩
  | .hbm, ⟨42, _⟩ => ⟨S16x1, .i32⟩
  | .hbm, ⟨43, _⟩ => ⟨S16x1, .i32⟩
  | .hbm, ⟨44, _⟩ => ⟨S_, .i32⟩
  | .hbm, ⟨45, _⟩ => ⟨S16x512, .i32⟩
  | .hbm, ⟨46, _⟩ => ⟨S16x512, .i1⟩
  | .hbm, ⟨47, _⟩ => ⟨S_, .i32⟩
  | .hbm, ⟨48, _⟩ => ⟨S16x512, .i32⟩
  | .hbm, ⟨49, _⟩ => ⟨S16x512, .i32⟩
  | .hbm, ⟨50, _⟩ => ⟨S16x512, .i32⟩
  | .hbm, ⟨51, _⟩ => ⟨S16x512, .i32⟩
  | .hbm, ⟨52, _⟩ => ⟨S16x512x1, .i32⟩
  | .hbm, ⟨53, _⟩ => ⟨S16x512x1, .i32⟩
  | .hbm, ⟨54, _⟩ => ⟨S16x512x2, .i32⟩
  | .hbm, ⟨55, _⟩ => ⟨S16x65536x32, .f32⟩
  | .hbm, ⟨56, _⟩ => ⟨S16x256x256x32, .f32⟩
  | .hbm, ⟨57, _⟩ => ⟨S16x32x256x256, .f32⟩
  | .hbm, ⟨58, _⟩ => ⟨S16x96x256x256, .f32⟩
  | _, _ => ⟨S16x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_c_2 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v9 : Ref sig .tc := ⟨.hbm, 28, rfl⟩
abbrev main_c_3 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c_4 : Ref sig .tc := ⟨.hbm, 37, rfl⟩
abbrev main_v16 : Ref sig .tc := ⟨.hbm, 38, rfl⟩
abbrev main_v17 : Ref sig .tc := ⟨.hbm, 39, rfl⟩
abbrev main_c_5 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_6 : Ref sig .tc := ⟨.hbm, 44, rfl⟩
abbrev main_v21 : Ref sig .tc := ⟨.hbm, 45, rfl⟩
abbrev main_v22 : Ref sig .tc := ⟨.hbm, 46, rfl⟩
abbrev main_c_7 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩

abbrev nD : Nat := 1
abbrev τ : Topo := Topo.v7x

variable {F : FTy → Type} [FloatOps F]

class Facts₀ : Prop where
  bcast_S32_S1x1x32_2 : S32.BroadcastsInDim S1x1x32 (![2] : Fin 1 → Fin S1x1x32.rank)
  bcast_S1x1x32_S16x512x32_0_1_2 : S1x1x32.BroadcastsInDim S16x512x32 (![0, 1, 2] : Fin 3 → Fin S16x512x32.rank)
  slices_S16x512x2_S16x512x1_0_0_0 : S16x512x2.Slices ![0, 0, 0] S16x512x1
  shapeCasts_S16x512x1_S16x512 : S16x512x1.ShapeCasts S16x512
  bcast_S_S16x512 : S_.BroadcastsInDim S16x512 (![] : Fin 0 → Fin S16x512.rank)
  slices_S16x512x2_S16x512x1_0_0_1 : S16x512x2.Slices ![0, 0, 1] S16x512x1
  bcast_S_S16x65536x32 : S_.BroadcastsInDim S16x65536x32 (![] : Fin 0 → Fin S16x65536x32.rank)
  bcast_S16_S16x1_0 : S16.BroadcastsInDim S16x1 (![0] : Fin 1 → Fin S16x1.rank)
  bcast_S_S16x1 : S_.BroadcastsInDim S16x1 (![] : Fin 0 → Fin S16x1.rank)
  bcast_S16x1_S16x512_0_1 : S16x1.BroadcastsInDim S16x512 (![0, 1] : Fin 2 → Fin S16x512.rank)
  bcast_S16x512_S16x512x1_0_1 : S16x512.BroadcastsInDim S16x512x1 (![0, 1] : Fin 2 → Fin S16x512x1.rank)
  concatenates_S16x512x1_S16x512x1_S16x512x2_d2 : Shape.Concatenates [S16x512x1, S16x512x1] S16x512x2 2
  shapeCasts_S16x65536x32_S16x256x256x32 : S16x65536x32.ShapeCasts S16x256x256x32
  transposes_S16x256x256x32_S16x32x256x256_0_3_1_2 : S16x256x256x32.Transposes [0, 3, 1, 2] S16x32x256x256
  concatenates_S16x64x256x256_S16x32x256x256_S16x96x256x256_d1 : Shape.Concatenates [S16x64x256x256, S16x32x256x256] S16x96x256x256 1
  dot_S16x512x256_S256x32_S16x512x32_2_0_01_1_n_n_wf : DotDims.WF S16x512x256 S256x32 S16x512x32 [2] [0] [0, 1] [1] [] []
  scatter_S16x65536x32_S16x512x2_S16x512x32_2_01_01_2_wf : ScatterDims.WF S16x65536x32 S16x512x2 S16x512x32 [2] [0, 1] [0, 1] 2

variable [Facts₀]

def dot_S16x512x256_S256x32_S16x512x32_2_0_01_1_n_n : DotDims S16x512x256 S256x32 S16x512x32 where
  lhsContracting := [2]
  rhsContracting := [0]
  lhsNonContracting := [0, 1]
  rhsNonContracting := [1]
  lhsBatch := []
  rhsBatch := []
  wf := dot_S16x512x256_S256x32_S16x512x32_2_0_01_1_n_n_wf
def scatter_S16x65536x32_S16x512x2_S16x512x32_2_01_01_2 : ScatterDims S16x65536x32 S16x512x2 S16x512x32 where
  updateWindowDims := [2]
  insertedWindowDims := [0, 1]
  scatterDimsToOperandDims := [0, 1]
  indexVectorDim := 2
  wf := scatter_S16x65536x32_S16x512x2_S16x512x32_2_01_01_2_wf

class Facts : Prop extends Facts₀ where

variable [Facts]
-- ==== Proof.Spec.lean ====
/-
  The mathematics of the kernel, stated once over literal coordinates.

  Three functions of the argument arrays describe everything both programs compute:

  * `projAt`: the per-entity projection. For batch `b`, entity `n` and output feature `e` it is
    `(∑ k, x[b, n, k] · w[k, e]) + bias[e]`: a row of the embeddings against a column of the weights,
    plus the bias. Only a finite sum and one addition on the extended reals are involved.
  * `assembleAt`: the channel-wise join over a flattened spatial axis. Channel `ch < 64` at spatial
    position `s` is the spatial array's entry `[b, ch, s]`; channel `ch ≥ 64` is the scatter map's entry
    `[b, s, ch - 64]`, that is the scatter map with its last two axes exchanged.
  * `outAt`: the same join with the spatial position split as `s = h · 256 + w`.

  No arithmetic happens after the projection: the scatter and the join only move entries.
-/
import proofs.«148303_j2216203125301_1_alg».proof.KernelIdeal
import Idealize.ShloMosaic.PureOps.Ideal
import Idealize.ShloMosaic.Lib.ValueIdx

noncomputable section

namespace Cert.Bridge

open Idealize.ShloMosaic Idealize.ShloMosaic.ValueIdx Cert.KernelIdeal

/-- The projection at batch `b`, entity `n`, feature `e`: row `[b, n, ·]` of the embeddings against column
    `[·, e]` of the weights, plus the bias entry `e`. -/
def projAt (x : FVec Ideal S16x512x256 .f32) (w : FVec Ideal S256x32 .f32) (bias : Fin 32 → EReal)
    (b : Fin 16) (n : Fin 512) (e : Fin 32) : EReal :=
  (∑ k : Fin 256, x (ix3 b n k) * w (ix2 k e)) + bias e

/-- The projection as an array `[16, 512, 32]`. -/
def proj (x : FVec Ideal S16x512x256 .f32) (w : FVec Ideal S256x32 .f32) (bias : Fin 32 → EReal) :
    FVec Ideal S16x512x32 .f32 :=
  fun i => projAt x w bias (i 0) (i 1) (i 2)

/-- The join at batch `b`, channel `ch`, flattened position `s`: the spatial array below channel 64, the scatter
    map with its last two axes exchanged from channel 64 on. -/
def assembleAt (sp : FVec Ideal S16x64x65536 .f32) (sm : FVec Ideal S16x65536x32 .f32)
    (b : Fin 16) (ch : Fin 96) (s : Fin 65536) : EReal :=
  if h : ch.val < 64 then sp (ix3 b ⟨ch.val, h⟩ s) else sm (ix3 b s ⟨ch.val - 64, by omega⟩)

/-- The join as an array `[16, 96, 65536]`. -/
def assemble (sp : FVec Ideal S16x64x65536 .f32) (sm : FVec Ideal S16x65536x32 .f32) :
    FVec Ideal S16x96x65536 .f32 :=
  fun i => assembleAt sp sm (i 0) (i 1) (i 2)

/-- The join with the position split into row `h` and column `w` of the `256 × 256` grid: `s = h · 256 + w`. -/
def outAt (x0 : FVec Ideal S16x64x256x256 .f32) (sm : FVec Ideal S16x65536x32 .f32)
    (b : Fin 16) (ch : Fin 96) (h w : Fin 256) : EReal :=
  if hc : ch.val < 64 then x0 (ix4 b ⟨ch.val, hc⟩ h w)
  else sm (ix3 b ⟨h.val * 256 + w.val, by omega⟩ ⟨ch.val - 64, by omega⟩)

theorem proj_apply (x : FVec Ideal S16x512x256 .f32) (w : FVec Ideal S256x32 .f32) (bias : Fin 32 → EReal)
    (b : Fin 16) (n : Fin 512) (e : Fin 32) : proj x w bias (ix3 b n e) = projAt x w bias b n e := rfl

theorem assemble_apply (sp : FVec Ideal S16x64x65536 .f32) (sm : FVec Ideal S16x65536x32 .f32)
    (b : Fin 16) (ch : Fin 96) (s : Fin 65536) : assemble sp sm (ix3 b ch s) = assembleAt sp sm b ch s := rfl

end Cert.Bridge

end
-- ==== Proof.HostMoves.lean ====
/-
  The host stretches of the idealized kernel program that only move entries.

  Between the launch and the return the program's buffers are folded through nine segments: a reshape of the bias
  to a row, the projection kernel, the index arithmetic and the scatter, a reshape of the spatial input that
  flattens its two trailing axes, the join kernel, and a reshape of the joined array back to a 256 x 256 grid.
  This module reads the three reshapes at an index and follows the buffers that no operation of a stretch writes:

  * the bias row at (0, e) is the bias at e;
  * the flattened spatial array at (b, c, h * 256 + w) is the spatial input at (b, c, h, w);
  * the result at (b, c, h, w) is the joined array at (b, c, h * 256 + w);
  * the embeddings, the weights, the locations and the spatial input reach the places where they are read
    with their launch contents, and the projection kernel's result reaches the scatter unchanged.

  A reshape keeps the row-major position of every entry, so each of the first three facts is an identity between
  two row-major positions, which is linear arithmetic in the coordinates.
-/
import proofs.«148303_j2216203125301_1_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.HostMoves

open Idealize.ShloMosaic Idealize.ShloMosaic.TcCoe Idealize.ShloMosaic.ValueIdx Idealize.SL.Sem
open Idealize.ShloMosaic.StableHlo
open Cert.KernelIdeal Cert.KernelIdeal.Gen

/-- No operation of the named stretch writes the buffer: the stretch leaves its contents as they were. -/
local macro "stretch_keeps " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The three reshapes read at an index -/

section Reshapes
variable {α : Type}

/-- A vector of length 32 reshaped to one row: the row's entry `e` is the vector's entry `e`. -/
theorem row_of_vector (x : S32.Idx → α) (h : S32.ShapeCasts S1x32) (e : Fin 32) :
    shapeCast S1x32 x h (ix2 (0 : Fin 1) e) = x (ix1 e) := by
  refine shapeCast_apply x h _ _ ?_
  rw [Shape.rowMajor_val_one, Shape.rowMajor_val_two]
  show e.val = (0 : Fin 1).val * 32 + e.val
  simp

/-- The two trailing axes of the spatial input merged: position `h * 256 + w` of the merged axis is `(h, w)`. -/
theorem spatial_flattened (x : S16x64x256x256.Idx → α) (hc : S16x64x256x256.ShapeCasts S16x64x65536)
    (b : Fin 16) (ch : Fin 64) (h w : Fin 256) (p : Fin 65536) (hp : p.val = h.val * 256 + w.val) :
    shapeCast S16x64x65536 x hc (ix3 b ch p) = x (ix4 b ch h w) := by
  refine shapeCast_apply x hc _ _ ?_
  rw [Shape.rowMajor_val_four, Shape.rowMajor_val_three]
  show ((b.val * 64 + ch.val) * 256 + h.val) * 256 + w.val = (b.val * 64 + ch.val) * 65536 + p.val
  rw [hp]; ring

/-- The joined array's trailing axis split into a 256 x 256 grid: entry `(h, w)` is position `h * 256 + w`. -/
theorem joined_unflattened (x : S16x96x65536.Idx → α) (hc : S16x96x65536.ShapeCasts S16x96x256x256)
    (b : Fin 16) (ch : Fin 96) (h w : Fin 256) (p : Fin 65536) (hp : p.val = h.val * 256 + w.val) :
    shapeCast S16x96x256x256 x hc (ix4 b ch h w) = x (ix3 b ch p) := by
  refine shapeCast_apply x hc _ _ ?_
  rw [Shape.rowMajor_val_four, Shape.rowMajor_val_three]
  show (b.val * 96 + ch.val) * 65536 + p.val = ((b.val * 96 + ch.val) * 256 + h.val) * 256 + w.val
  rw [hp]; ring

end Reshapes

/-! ## The buffers through the segments -/

variable {F : FTy → Type} [FloatOps F]
variable (m : (ℓ : Loc nD τ sig) → Buf (Elt F) ℓ) (ρ : Dev nD → PrngReg) (c : Dev nD)

/-- Before the projection kernel: the bias as a row. -/
theorem bias_row : W1 m ρ c (Proc.devRef .tc main_v0)
    = shapeCast S1x32 (m ((c : Thread nD τ).loc main_arg3)) shapeCasts_S32_S1x32 := by
  show StableHlo.after hostOps0 (W0 m ρ c) (Proc.devRef .tc main_v0) = _
  after_results
  rfl

/-- Before the projection kernel the embeddings and the weights are as launched. -/
theorem emb_at_entry : W1 m ρ c (Proc.devRef .tc main_arg1) = m ((c : Thread nD τ).loc main_arg1) :=
  calc W1 m ρ c (Proc.devRef .tc main_arg1)
    _ = W0 m ρ c (Proc.devRef .tc main_arg1) := by stretch_keeps hostOps0
    _ = _ := rfl
theorem weights_at_entry : W1 m ρ c (Proc.devRef .tc main_arg2) = m ((c : Thread nD τ).loc main_arg2) :=
  calc W1 m ρ c (Proc.devRef .tc main_arg2)
    _ = W0 m ρ c (Proc.devRef .tc main_arg2) := by stretch_keeps hostOps0
    _ = _ := rfl

/-- After the projection kernel its result array holds what the pipeline's write-backs leave. -/
theorem proj_at_exit : W2 m ρ c (Proc.devRef .tc main_v1) = (dat0 (V1 m ρ) c).arrAt 3 cfg0.N :=
  W2_arr m ρ c 3

/-- After the projection kernel the locations and the spatial input are as launched. -/
theorem loc_after_proj : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := by stretch_keeps hostOps0
    _ = _ := rfl
theorem spatial_after_proj : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := by stretch_keeps hostOps0
    _ = _ := rfl

/-- The spatial input reaches the last stretch before the join kernel as launched. -/
theorem spatial_before_join : W6 m ρ c (Proc.devRef .tc main_arg0) = m ((c : Thread nD τ).loc main_arg0) :=
  calc W6 m ρ c (Proc.devRef .tc main_arg0)
    _ = W5 m ρ c (Proc.devRef .tc main_arg0) := by stretch_keeps hostOps1_3
    _ = W4 m ρ c (Proc.devRef .tc main_arg0) := by stretch_keeps hostOps1_2
    _ = W3 m ρ c (Proc.devRef .tc main_arg0) := by stretch_keeps hostOps1_1
    _ = W2 m ρ c (Proc.devRef .tc main_arg0) := by stretch_keeps hostOps1
    _ = _ := spatial_after_proj m ρ c

/-- At the join kernel's entry its first operand is the spatial input with its trailing axes merged. -/
theorem spatial_at_join : W7 m ρ c (Proc.devRef .tc main_v29)
    = shapeCast S16x64x65536 (m ((c : Thread nD τ).loc main_arg0)) shapeCasts_S16x64x256x256_S16x64x65536 := by
  rw [← spatial_before_join m ρ c]
  show StableHlo.after hostOps1_4 (W6 m ρ c) (Proc.devRef .tc main_v29) = _
  after_results
  rfl

/-- After the join kernel its result array holds what the pipeline's write-backs leave. -/
theorem joined_at_exit : W8 m ρ c (Proc.devRef .tc main_v30) = (dat1 (V7 m ρ) c).arrAt 2 cfg1.N :=
  W8_arr m ρ c 2

/-- The program's result: the joined array with its trailing axis split. -/
theorem result_is_reshape : W9 m ρ c (Proc.devRef .tc main_v31)
    = shapeCast S16x96x256x256 (W8 m ρ c (Proc.devRef .tc main_v30)) shapeCasts_S16x96x65536_S16x96x256x256 := by
  show StableHlo.after hostOps2 (W8 m ρ c) (Proc.devRef .tc main_v31) = _
  after_results
  rfl

end Cert.KernelIdeal.HostMoves

end
-- ==== Proof.ValueRun.lean ====
/-
  The idealized kernel's run with its result named.

  Every weakly fair execution of the program terminates without a fault, the five argument arrays end as
  launched, and the result array ends at the contents the last host stretch leaves: the fold of the host
  operations and of the two kernel regions' write-backs from the launch memory, read at the result buffer.
  What that fold is, as a function of the arguments, is the business of the value modules.
-/
import proofs.«148303_j2216203125301_1_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program runs; the result buffer ends at the last boundary's contents, and the arguments end as launched. -/
theorem run : θ_run defs (onTc (τ := τ) (main (F := F))) ⟨m, fun _ => 0, ρ⟩ (fun r => ∀ c : Dev nD,
      r.2.mem ((c.tc : Thread nD τ).loc main_v31) = W9 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v31 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c)⟩)

end Cert.KernelIdeal.ValueRun

end
-- ==== Proof.Region0Value.lean ====
/-
  Region 0 read as one array.

  The first region of the program runs over 16 grid points, one per batch. At point `t` it is handed three blocks:
  rows `[t, :, :]` of the embeddings (a `[1, 512, 256]` block), the whole `[256, 32]` weight matrix, and the whole
  `[1, 32]` bias row. It writes back one `[1, 512, 32]` block, rows `[t, :, :]` of the result.

  What it writes: entry `[0, n, e]` of the block is the product of row `n` of the embeddings' block with column `e`
  of the weights — a sum of 256 products, accumulated from zero — plus entry `e` of the bias row. Changing the
  format of the operands before the product is the identity on extended reals, so nothing else happens.

  Hence, after all 16 points, entry `[b, n, e]` of the result array is
  `(∑ k, x[b, n, k] · w[k, e]) + bias[0, e]`: batch `b`'s rows are written by point `b` and by no other, and the 16
  row blocks fill the array.
-/
import proofs.«148303_j2216203125301_1_alg».proof.Proof.Gen.KernelIdeal.Frame
import proofs.«148303_j2216203125301_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region0

open Idealize.ShloMosaic Idealize.ShloMosaic.TcCoe Idealize.ShloMosaic.ValueIdx Idealize.SL.Sem Cert.KernelIdeal Cert.KernelIdeal.Gen

/-! ## The block product at an entry -/

/-- The product's dimension numbers: rows of the left operand against columns of the right one, contracting the left
    operand's second axis with the right operand's first. -/
abbrev rowsByCols : DotDims S512x256 S256x32 S512x32 := dot_S512x256_S256x32_S512x32_1_0_0_1_n_n

/-- The left operand is read in the output's row … -/
theorem lhs_row (j : S512x32.Idx) (q : rowsByCols.contr.Idx) : (rowsByCols.lhsIdx j q 0).val = (j 0).val := by
  unfold DotDims.lhsIdx
  rw [dif_neg (show ¬(0 : Fin S512x256.rank) ∈ rowsByCols.lhsBatch by decide),
    dif_pos (show (0 : Fin S512x256.rank) ∈ rowsByCols.lhsNonContracting by decide)]
  rfl

/-- … at the contraction's position; -/
theorem lhs_col (j : S512x32.Idx) (q : rowsByCols.contr.Idx) :
    (rowsByCols.lhsIdx j q 1).val = (q ⟨0, by decide⟩).val :=
  rowsByCols.lhsIdx_val_of_single rfl j q

/-- the right operand is read at the contraction's position … -/
theorem rhs_row (j : S512x32.Idx) (q : rowsByCols.contr.Idx) :
    (rowsByCols.rhsIdx j q 0).val = (q ⟨0, by decide⟩).val :=
  rowsByCols.rhsIdx_val_of_single rfl j q

/-- … in the output's column. -/
theorem rhs_col (j : S512x32.Idx) (q : rowsByCols.contr.Idx) : (rowsByCols.rhsIdx j q 1).val = (j 1).val := by
  unfold DotDims.rhsIdx
  rw [dif_neg (show ¬(1 : Fin S256x32.rank) ∈ rowsByCols.rhsBatch by decide),
    dif_pos (show (1 : Fin S256x32.rank) ∈ rowsByCols.rhsNonContracting by decide)]
  rfl

/-- A `[512, 256]` by `[256, 32]` product accumulated from zero, at row `n` and column `e`: the sum over the 256
    contraction positions of the products of the row's and the column's entries. -/
theorem product_apply {φ₁ φ₂ : FTy} (A : FVec Ideal S512x256 φ₁) (B : FVec Ideal S256x32 φ₂) (n : Fin 512) (e : Fin 32) :
    matmul rowsByCols none A B (constant (F := Ideal) S512x32 .f32 0x00000000#32) (ix2 n e)
      = ∑ k : Fin 256, A (ix2 n k) * B (ix2 k e) := by
  simp only [matmul]
  rw [Ideal.matmul_constant_zero_apply, ← Equiv.sum_comp (contrEquiv1 rowsByCols 256 rfl rfl).symm]
  refine Finset.sum_congr rfl fun k _ => ?_
  have hk := contrEquiv1_symm_val rowsByCols 256 rfl rfl k
  have el : rowsByCols.lhsIdx (ix2 n e) ((contrEquiv1 rowsByCols 256 rfl rfl).symm k) = ix2 n k :=
    funext fun a => Fin.ext (by
      match a with
      | ⟨0, _⟩ => exact lhs_row _ _
      | ⟨1, _⟩ => exact (lhs_col _ _).trans hk)
  have er : rowsByCols.rhsIdx (ix2 n e) ((contrEquiv1 rowsByCols 256 rfl rfl).symm k) = ix2 k e :=
    funext fun a => Fin.ext (by
      match a with
      | ⟨0, _⟩ => exact (rhs_row _ _).trans hk
      | ⟨1, _⟩ => exact rhs_col _ _)
  rw [el, er]

/-! ## What the body stores, entry by entry -/

/-- Entry `[0, n, e]` of the block the body stores: row `n` of the embeddings' block against column `e` of the
    weights, plus entry `e` of the bias row. -/
theorem stored_apply (x0 : Vec Ideal S1x512x256 .f32) (x1 : Vec Ideal S256x32 .f32) (x2 : Vec Ideal S1x32 .f32)
    (n : Fin 512) (e : Fin 32) :
    k0_pay1 (F := Ideal) x0 x1 x2 (ix3 (0 : Fin 1) n e)
      = (∑ k : Fin 256, x0 (ix3 (0 : Fin 1) n k) * x1 (ix2 k e)) + x2 (ix2 (0 : Fin 1) e) := by
  unfold k0_pay1
  refine (shapeCast_ab_1ab_apply _ shapeCasts_S512x32_S1x512x32 (0 : Fin 1) n e).trans ?_
  rw [addf_apply]
  refine congrArg₂ (· + ·) ?_ ?_
  · refine (product_apply _ _ n e).trans (Finset.sum_congr rfl fun k _ => ?_)
    refine congrArg₂ (· * ·) ?_ rfl
    exact shapeCast_1ab_ab_apply x0 shapeCasts_S1x512x256_S512x256 n k
  · refine (broadcastTo_1b_ab_apply _ broadcasts_S1x32_S512x32 n e).trans ?_
    rw [shapeCast_self]

variable (V : (c : Dev nD) → (b : Ref sig .tc) → Buf (Elt Ideal) ((c : Thread nD τ).loc b))

/-! ## One grid point: the block written back is a row block of the projection -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- If a `[1, 512, 256]` block holds batch `b`'s rows of `X`, a `[256, 32]` block holds `W` and a `[1, 32]` block
    holds the row `B`, then entry `j` of the block the body stores is the projection's entry `i`, for every index
    `i` of the `[16, 512, 32]` array that lies in batch `b` at `j`'s row and column. -/
theorem stored_is_proj (x0 : Vec Ideal S1x512x256 .f32) (x1 : Vec Ideal S256x32 .f32) (x2 : Vec Ideal S1x32 .f32)
    (X : FVec Ideal S16x512x256 .f32) (W : FVec Ideal S256x32 .f32) (B : FVec Ideal S1x32 .f32) (b : Fin 16)
    (h0 : ∀ (n : Fin 512) (k : Fin 256), x0 (ix3 (0 : Fin 1) n k) = X (ix3 b n k))
    (h1 : ∀ (k : Fin 256) (e : Fin 32), x1 (ix2 k e) = W (ix2 k e))
    (h2 : ∀ e : Fin 32, x2 (ix2 (0 : Fin 1) e) = B (ix2 (0 : Fin 1) e))
    (j : S1x512x32.Idx) (i : S16x512x32.Idx)
    (hi0 : (i 0).val = b.val) (hi1 : (i 1).val = (j 1).val) (hi2 : (i 2).val = (j 2).val) :
    k0_pay1 (F := Ideal) x0 x1 x2 j = Cert.Bridge.proj X W (fun e => B (ix2 (0 : Fin 1) e)) i := by
  obtain ⟨u, n, e, rfl⟩ : ∃ (u : Fin 1) (n : Fin 512) (e : Fin 32), j = ix3 u n e := ⟨j 0, j 1, j 2, eq_ix3 j⟩
  obtain ⟨b', n', e', rfl⟩ : ∃ (b' : Fin 16) (n' : Fin 512) (e' : Fin 32), i = ix3 b' n' e' := ⟨i 0, i 1, i 2, eq_ix3 i⟩
  obtain rfl : u = 0 := Subsingleton.elim _ _
  obtain rfl : b' = b := Fin.ext hi0
  obtain rfl : n' = n := Fin.ext hi1
  obtain rfl : e' = e := Fin.ext hi2
  rw [stored_apply, Cert.Bridge.proj_apply]
  unfold Cert.Bridge.projAt
  exact congrArg₂ (· + ·) (Finset.sum_congr rfl fun k _ => by rw [h0, h1]) (h2 _)

/-- The windows' block indices at point `t`, decided over the 16 points: the embeddings' window and the result's
    window are on row block `t`; the weights' and the bias row's windows are the whole arrays. -/
theorem block_indices : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The batch a grid point works on. -/
def batchOf (t : Fin cfg0.N) : Fin 16 := ⟨t.val, (show cfg0.N = 16 from N_0) ▸ t.isLt⟩

/-- The embeddings' block at point `t` is batch `t`'s rows. -/
theorem rows_block (c : Dev nD) (t : Fin cfg0.N) (n : Fin 512) (k : Fin 256) :
    (iblk0 V c 0 t : Vec Ideal S1x512x256 .f32) (ix3 (0 : Fin 1) n k)
      = (V c main_arg1 : FVec Ideal S16x512x256 .f32) (ix3 (batchOf t) n k) := by
  obtain ⟨e0, e1, e2, -⟩ := block_indices t
  show V c main_arg1 (((cfg0.win 0).blk t).view.emb (ix3 (0 : Fin 1) n k)) = V c main_arg1 (ix3 (batchOf t) n k)
  refine congrArg (V c main_arg1) (funext fun a => Fin.ext ?_)
  match a with
  | ⟨0, _⟩ => show win0_0.index t (0 : Fin 3) * 1 + 1 * 0 = t.val; omega
  | ⟨1, _⟩ => show win0_0.index t (1 : Fin 3) * 512 + 1 * n.val = n.val; omega
  | ⟨2, _⟩ => show win0_0.index t (2 : Fin 3) * 256 + 1 * k.val = k.val; omega

/-- The weights' block at every point is the whole matrix. -/
theorem weights_block (c : Dev nD) (t : Fin cfg0.N) (k : Fin 256) (e : Fin 32) :
    (iblk0 V c 1 t : Vec Ideal S256x32 .f32) (ix2 k e) = (V c main_arg2 : FVec Ideal S256x32 .f32) (ix2 k e) := by
  obtain ⟨-, -, -, e0, e1, -⟩ := block_indices t
  show V c main_arg2 (((cfg0.win 1).blk t).view.emb (ix2 k e)) = V c main_arg2 (ix2 k e)
  refine congrArg (V c main_arg2) (funext fun a => Fin.ext ?_)
  match a with
  | ⟨0, _⟩ => show win0_1.index t (0 : Fin 2) * 256 + 1 * k.val = k.val; omega
  | ⟨1, _⟩ => show win0_1.index t (1 : Fin 2) * 32 + 1 * e.val = e.val; omega

/-- The bias row's block at every point is the whole row. -/
theorem bias_block (c : Dev nD) (t : Fin cfg0.N) (e : Fin 32) :
    (iblk0 V c 2 t : Vec Ideal S1x32 .f32) (ix2 (0 : Fin 1) e) = (V c main_v0 : FVec Ideal S1x32 .f32) (ix2 (0 : Fin 1) e) := by
  obtain ⟨-, -, -, -, -, e0, e1, -⟩ := block_indices t
  show V c main_v0 (((cfg0.win 2).blk t).view.emb (ix2 (0 : Fin 1) e)) = V c main_v0 (ix2 (0 : Fin 1) e)
  refine congrArg (V c main_v0) (funext fun a => Fin.ext ?_)
  match a with
  | ⟨0, _⟩ => show win0_2.index t (0 : Fin 2) * 1 + 1 * 0 = 0; omega
  | ⟨1, _⟩ => show win0_2.index t (1 : Fin 2) * 32 + 1 * e.val = e.val; omega

/-- What point `t` writes back is row block `t` of the projection of the arrays the region is entered with. -/
theorem flushed_eq (c : Dev nD) (t : Fin cfg0.N) :
    (dat0 (F := Ideal) V c).flushed 3 t
      = ((cfg0.win 3).blk t).view.read (Elt Ideal)
          (Cert.Bridge.proj (V c main_arg1) (V c main_arg2) (fun e => V c main_v0 (ix2 (0 : Fin 1) e))) := by
  show (cfg0.win 3).cut (grid0.coords t) ((dat0 (F := Ideal) V c).after 3 t) = _
  rw [after0_3]
  unfold out0_3
  rw [View.canon_unit_zero zeros3]
  simp only [View.ld_unit_zero (S := S1x512x256) zeros3, View.ld_unit_zero (S := S256x32) zeros2,
    View.ld_unit_zero (S := S1x32) zeros2]
  obtain ⟨-, -, -, -, -, -, -, e0, e1, e2⟩ := block_indices t
  funext j
  show k0_pay1 (F := Ideal) (iblk0 V c 0 t) (iblk0 V c 1 t) (iblk0 V c 2 t) j
    = Cert.Bridge.proj (V c main_arg1) (V c main_arg2) (fun e => V c main_v0 (ix2 (0 : Fin 1) e))
        (((cfg0.win 3).blk t).view.emb j)
  refine stored_is_proj (iblk0 V c 0 t) (iblk0 V c 1 t) (iblk0 V c 2 t) (V c main_arg1) (V c main_arg2) (V c main_v0)
    (batchOf t) (rows_block V c t) (weights_block V c t) (bias_block V c t) j (((cfg0.win 3).blk t).view.emb j) ?_ ?_ ?_
  · show win0_3.index t (0 : Fin 3) * 1 + 1 * (j 0).val = t.val
    have hj : (j 0).val < 1 := (j 0).isLt
    omega
  · show win0_3.index t (1 : Fin 3) * 512 + 1 * (j 1).val = (j 1).val
    omega
  · show win0_3.index t (2 : Fin 3) * 32 + 1 * (j 2).val = (j 2).val
    omega

/-! ## All sixteen points: the array -/

/-- An index of the result array is in point `t`'s block iff each coordinate is in the block's range on its axis. -/
theorem mem_rows (t : Fin cfg0.N) (i : S16x512x32.Idx) :
    i ∈ ((cfg0.win 3).blk t).view.set
      ↔ ∀ a : Fin 3, win0_3.index t a * S1x512x32.size a ≤ (i a).val
          ∧ (i a).val < win0_3.index t a * S1x512x32.size a + S1x512x32.size a := by
  show i ∈ ((View.whole main_v1).slice (win0_3.rect t)).set ↔ _
  rw [View.set_slice_whole, Rect.mem_set_unit]
  exact Iff.rfl

/-- Every entry of the result array is written back by some point: entry `[b, n, e]` by point `b`. -/
theorem covered (i : S16x512x32.Idx) :
    ∃ t : Fin cfg0.N, (cfg0.win 3).flush t = true ∧ i ∈ ((cfg0.win 3).blk t).view.set := by
  obtain ⟨t, ht⟩ : ∃ t : Fin cfg0.N, t.val = (i 0).val :=
    ⟨⟨(i 0).val, Nat.lt_of_lt_of_eq (i 0).isLt N_0.symm⟩, rfl⟩
  refine ⟨t, flush0_3 t, ?_⟩
  obtain ⟨-, -, -, -, -, -, -, e0, e1, e2⟩ := block_indices t
  rw [mem_rows]
  intro a
  have h1 : (i 1).val < 512 := (i 1).isLt
  have h2 : (i 2).val < 32 := (i 2).isLt
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 512 ≤ (i 1).val ∧ (i 1).val < win0_3.index t (1 : Fin 3) * 512 + 512
    omega
  | ⟨2, _⟩ =>
    show win0_3.index t (2 : Fin 3) * 32 ≤ (i 2).val ∧ (i 2).val < win0_3.index t (2 : Fin 3) * 32 + 32
    omega

/-- After all 16 points the result array is the projection of the arrays the region is entered with: entry
    `[b, n, e]` is `(∑ k, x[b, n, k] · w[k, e]) + bias[0, e]`. -/
theorem arr_final (c : Dev nD) :
    (dat0 (F := Ideal) V c).arrAt 3 cfg0.N
      = Cert.Bridge.proj (V c main_arg1) (V c main_arg2) (fun e => V c main_v0 (ix2 (0 : Fin 1) e)) :=
  (dat0 (F := Ideal) V c).arrAt_eq_of_cover 3
    (Cert.Bridge.proj (V c main_arg1) (V c main_arg2) (fun e => V c main_v0 (ix2 (0 : Fin 1) e)))
    (fun t _ => flushed_eq V c t) covered

end Cert.KernelIdeal.Region0

end
-- ==== Proof.Region1Value.lean ====
/-
  Region 1 of the kernel program: the channel-wise join, as one function of the arrays the region is entered with.

  The region walks a `16 × 16` grid: a batch `b` and a tile `s` of 4096 consecutive flattened positions. At each point
  it takes block `(b, 0, s)` of the spatial array `[16, 64, 65536]` and block `(b, s, 0)` of the scatter map
  `[16, 65536, 32]`, and writes block `(b, 0, s)` of the result `[16, 96, 65536]`: channels `0 … 63` are the spatial
  block, channels `64 … 95` are the scatter block with its two long axes exchanged. So entry `[b, ch, p]` of the result
  is the spatial array's `[b, ch, p]` below channel 64 and the scatter map's `[b, p, ch - 64]` from channel 64 on.
  No arithmetic is involved: entries are only moved.

  The proof has two halves. First one tile: the two stores of the body are the two channel ranges of ONE function of
  the block index (`joinTile`), and together they fill the block. Then the array: a block's entry sits at block index
  times block size plus the coordinate inside the block, the three windows' block indices agree where they must, and
  the point of batch `b` and tile `p / 4096` is the one that writes entry `[b, ch, p]`.
-/
import proofs.«148303_j2216203125301_1_alg».proof.Proof.Gen.KernelIdeal.Frame
import proofs.«148303_j2216203125301_1_alg».proof.Proof.Spec
import Idealize.ShloMosaic.Lib.Pipeline.Value
import Idealize.ShloMosaic.Lib.ValueIdx
import Idealize.ShloMosaic.Lib.ValueLayout
noncomputable section
namespace Cert.KernelIdeal.Region1
open Idealize.ShloMosaic Idealize.ShloMosaic.TcCoe Idealize.ShloMosaic.ValueIdx Idealize.SL.Sem Cert.KernelIdeal Cert.KernelIdeal.Gen

/-! ## One tile of positions

At a grid point the body sees a block of the spatial array, `x0 : [1, 64, 4096]`, and a block of the scatter map,
`x1 : [1, 4096, 32]`, and fills a block `[1, 96, 4096]` of the result with two stores. Channels `0 … 63` are the
spatial block entry for entry; channels `64 … 95` are the scatter block with its two long axes exchanged: entry
`(0, 64 + r, q)` of the result block is entry `(0, q, r)` of the scatter block. Nothing is computed: entries move. -/

section Tile
variable {F : FTy → Type} [FloatOps F]

/-- The joined block at channel `ch` and position `q` inside the tile: the copied channels below 64, the transposed
    channels from 64 on. -/
def joinAt (x0 : Vec F S1x64x4096 .f32) (x1 : Vec F S1x4096x32 .f32) (ch : Fin 96) (q : Fin 4096) : Elt F .f32 :=
  if h : ch.val < 64 then x0 (ix3 (0 : Fin 1) (⟨ch.val, h⟩ : Fin 64) q)
  else x1 (ix3 (0 : Fin 1) q (⟨ch.val - 64, by omega⟩ : Fin 32))

/-- The joined block `[1, 96, 4096]` as one function of the two input blocks. -/
def joinTile (x0 : Vec F S1x64x4096 .f32) (x1 : Vec F S1x4096x32 .f32) : Vec F S1x96x4096 .f32 :=
  fun y => joinAt x0 x1 (y 1) (y 2)

theorem zero3 : (![0, 0, 0] : Fin 3 → Nat) = fun _ => 0 := funext fun a => by fin_cases a <;> rfl

/-- The copied channels: dropping the leading unit axis and putting it back changes no entry. -/
theorem copied_eq (x0 : Vec F S1x64x4096 .f32) : k1_pay1 x0 = x0 := by
  unfold k1_pay1
  exact shapeCast_shapeCast x0 _ _

/-- The transposed channels: entry `(u, r, q)` of what the second store writes is entry `(0, q, r)` of the scatter
    block (drop the unit axis, exchange the two axes, put the unit axis back). -/
theorem transposed_at (x1 : Vec F S1x4096x32 .f32) (u : Fin 1) (r : Fin 32) (q : Fin 4096) :
    k1_pay2 x1 (ix3 u r q) = x1 (ix3 (0 : Fin 1) q r) := by
  unfold k1_pay2
  refine (shapeCast_ab_1ab_apply _ _ u r q).trans ?_
  refine (transpose_ix2_apply _ _ r q).trans ?_
  exact shapeCast_1ab_ab_apply _ _ q r

/-- The second store's rectangle starts at channel 64: its entry `(u, r, q)` lands on entry `(u, 64 + r, q)` of the
    block, where the join reads the scatter block at `(0, q, r)`. -/
theorem transposed_piece (x0 : Vec F S1x64x4096 .f32) (x1 : Vec F S1x4096x32 .f32)
    (inb : ∀ a, (![0, 64, 0] : Fin 3 → Nat) a + S1x32x4096.size a ≤ S1x96x4096.size a)
    (u : Fin 1) (r : Fin 32) (q : Fin 4096) :
    k1_pay2 x1 (ix3 u r q)
      = joinTile x0 x1 ((Rect.unit (s := S1x96x4096) ![0, 64, 0] S1x32x4096.size inb).emb (ix3 u r q)) := by
  rw [transposed_at]
  have h1 : (((Rect.unit (s := S1x96x4096) ![0, 64, 0] S1x32x4096.size inb).emb (ix3 u r q)) 1 : Nat) = 64 + 1 * r.val := rfl
  have h2 : (((Rect.unit (s := S1x96x4096) ![0, 64, 0] S1x32x4096.size inb).emb (ix3 u r q)) 2 : Nat) = 0 + 1 * q.val := rfl
  unfold joinTile joinAt
  rw [dif_neg (by rw [h1]; omega)]
  refine congrArg x1 (funext fun a => Fin.ext ?_)
  match a with
  | ⟨0, _⟩ => rfl
  | ⟨1, _⟩ => show q.val = _; rw [h2]; omega
  | ⟨2, _⟩ => show r.val = _ - 64; rw [h1]; omega

/-- The first store's rectangle starts at channel 0: its entry `(u, ch, q)` lands on entry `(u, ch, q)` of the block,
    where the join reads the spatial block at `(0, ch, q)`. -/
theorem copied_piece (x0 : Vec F S1x64x4096 .f32) (x1 : Vec F S1x4096x32 .f32)
    (inb : ∀ a, (![0, 0, 0] : Fin 3 → Nat) a + S1x64x4096.size a ≤ S1x96x4096.size a)
    (u : Fin 1) (ch : Fin 64) (q : Fin 4096) :
    k1_pay1 x0 (ix3 u ch q)
      = joinTile x0 x1 ((Rect.unit (s := S1x96x4096) ![0, 0, 0] S1x64x4096.size inb).emb (ix3 u ch q)) := by
  rw [copied_eq]
  have h1 : (((Rect.unit (s := S1x96x4096) ![0, 0, 0] S1x64x4096.size inb).emb (ix3 u ch q)) 1 : Nat) = 0 + 1 * ch.val := rfl
  have h2 : (((Rect.unit (s := S1x96x4096) ![0, 0, 0] S1x64x4096.size inb).emb (ix3 u ch q)) 2 : Nat) = 0 + 1 * q.val := rfl
  have hu : u.val = 0 := by omega
  unfold joinTile joinAt
  rw [dif_pos (by rw [h1]; omega)]
  refine congrArg x0 (funext fun a => Fin.ext ?_)
  match a with
  | ⟨0, _⟩ => exact hu
  | ⟨1, _⟩ => show ch.val = _; rw [h1]; omega
  | ⟨2, _⟩ => show q.val = _; rw [h2]; omega

/-- What the body leaves in the result's staging block is the joined block of its two input blocks: the two stores are
    the two channel ranges of that one function, and together they fill the block. -/
theorem tile_eq (c : Dev nD) (i : grid1.Coords) (a2 : Memref sig .tc .vmem S1x64x4096 .f32) (h2 : a2.IsWhole)
    (a3 : Memref sig .tc .vmem S1x4096x32 .f32) (h3 : a3.IsWhole) (a4 : Memref sig .tc .vmem S1x96x4096 .f32) (h4 : a4.IsWhole)
    (x0 : Vec F S1x64x4096 .f32) (x1 : Vec F S1x4096x32 .f32) :
    out1_A_2 c i a2 h2 a3 h3 a4 h4 x0 x1 = joinTile x0 x1 := by
  unfold out1_A_2
  rw [View.read_writes_eq_canon _ _ _ (cover1_A_2 c i a2 h2 a3 h3 a4 h4 x0 x1)]
  funext y
  refine View.canon_apply_of_pieces (joinTile x0 x1) _ ?_ y (cover1_A_2 c i a2 h2 a3 h3 a4 h4 x0 x1 y)
  unfold kernelRun1_A
  dsimp only
  simp only [View.readAt_eq_ld, h2.read_unread, h3.read_unread, View.ld_unit_zero (S := S1x64x4096) zero3,
    View.ld_unit_zero (S := S1x4096x32) zero3]
  intro p hp
  rcases List.mem_cons.mp hp with rfl | hp
  · intro x
    obtain ⟨u, r, q, rfl⟩ : ∃ (u : Fin 1) (r : Fin 32) (q : Fin 4096), x = ix3 u r q := ⟨x 0, x 1, x 2, eq_ix3 x⟩
    exact transposed_piece x0 x1 Facts₀.inb_S1x96x4096_S1x32x4096_0_64_0 u r q
  rcases List.mem_cons.mp hp with rfl | hp
  · intro x
    obtain ⟨u, ch, q, rfl⟩ : ∃ (u : Fin 1) (ch : Fin 64) (q : Fin 4096), x = ix3 u ch q := ⟨x 0, x 1, x 2, eq_ix3 x⟩
    exact copied_piece x0 x1 Facts₀.inb_S1x96x4096_S1x64x4096_0_0_0 u ch q
  · exact absurd hp List.not_mem_nil

end Tile

/-! ## From tiles to the array

The grid is `16 × 16`: point `t` has batch `t / 16` and tile `t % 16`, a tile being 4096 consecutive flattened
positions. At that point the spatial window is block `(b, 0, s)` of `[16, 64, 65536]` in blocks `[1, 64, 4096]`, the
scatter window is block `(b, s, 0)` of `[16, 65536, 32]` in blocks `[1, 4096, 32]`, and the result window is block
`(b, 0, s)` of `[16, 96, 65536]` in blocks `[1, 96, 4096]`. An entry of a block sits in its array at block index times
block size plus its coordinate inside the block, axis by axis. -/

/-- The three index maps side by side, decided over the 256 grid points: the batch index is shared, the tile index of
    the result is the tile index of both inputs (on the last axis of the spatial array, on the middle axis of the
    scatter map), every other block index is zero, and the result's block is `(t / 16, 0, t % 16)`. -/
theorem index_facts : ∀ t : Fin cfg1.N,
    win1_0.index t (0 : Fin 3) = win1_2.index t (0 : Fin 3)
    ∧ win1_0.index t (1 : Fin 3) = 0
    ∧ win1_0.index t (2 : Fin 3) = win1_2.index t (2 : Fin 3)
    ∧ win1_1.index t (0 : Fin 3) = win1_2.index t (0 : Fin 3)
    ∧ win1_1.index t (1 : Fin 3) = win1_2.index t (2 : Fin 3)
    ∧ win1_1.index t (2 : Fin 3) = 0
    ∧ win1_2.index t (1 : Fin 3) = 0
    ∧ win1_2.index t (0 : Fin 3) = t.val / 16
    ∧ win1_2.index t (2 : Fin 3) = t.val % 16 :=
  (by decide +kernel : ∀ t : Fin grid1.N, _)

/-- The join read at an index of the result array given by its three coordinates. -/
theorem assemble_at (sp : FVec Ideal S16x64x65536 .f32) (sm : FVec Ideal S16x65536x32 .f32)
    (i : S16x96x65536.Idx) (b : Fin 16) (ch : Fin 96) (p : Fin 65536)
    (h0 : (i 0).val = b.val) (h1 : (i 1).val = ch.val) (h2 : (i 2).val = p.val) :
    Cert.Bridge.assemble sp sm i = Cert.Bridge.assembleAt sp sm b ch p := by
  have e : i = ix3 b ch p := funext fun a => Fin.ext (by
    match a with
    | ⟨0, _⟩ => exact h0
    | ⟨1, _⟩ => exact h1
    | ⟨2, _⟩ => exact h2)
  rw [e]
  rfl

/-- If `x0` is tile `s` of batch `b` of the spatial array and `x1` is tile `s` of batch `b` of the scatter map, then the
    joined block is tile `s` of batch `b` of the join: both sides choose the same source by the channel, and the
    position `p = s · 4096 + q` is the same on both. -/
theorem joinAt_eq_assembleAt (sp : FVec Ideal S16x64x65536 .f32) (sm : FVec Ideal S16x65536x32 .f32)
    (x0 : Vec Ideal S1x64x4096 .f32) (x1 : Vec Ideal S1x4096x32 .f32) (b : Fin 16) (s : Nat)
    (hx0 : ∀ (ch : Fin 64) (q : Fin 4096) (p : Fin 65536), p.val = s * 4096 + q.val →
      x0 (ix3 (0 : Fin 1) ch q) = sp (ix3 b ch p))
    (hx1 : ∀ (q : Fin 4096) (r : Fin 32) (p : Fin 65536), p.val = s * 4096 + q.val →
      x1 (ix3 (0 : Fin 1) q r) = sm (ix3 b p r))
    (ch : Fin 96) (q : Fin 4096) (p : Fin 65536) (hp : p.val = s * 4096 + q.val) :
    joinAt x0 x1 ch q = Cert.Bridge.assembleAt sp sm b ch p := by
  unfold joinAt Cert.Bridge.assembleAt
  by_cases h : ch.val < 64
  · rw [dif_pos h, dif_pos h]; exact hx0 _ q p hp
  · rw [dif_neg h, dif_neg h]; exact hx1 q _ p hp

variable (V : (c : Dev nD) → (b : Ref sig .tc) → Buf (Elt Ideal) ((c : Thread nD τ).loc b))

/-- The spatial window's block at point `t`, entry `(0, ch, q)`: the spatial array at batch `t / 16`, channel `ch`,
    position `(t % 16) · 4096 + q`. -/
theorem spatial_block_at (c : Dev nD) (t : Fin cfg1.N) (b : Fin 16) (hb : b.val = t.val / 16)
    (ch : Fin 64) (q : Fin 4096) (p : Fin 65536) (hp : p.val = t.val % 16 * 4096 + q.val) :
    (iblk1 (F := Ideal) V c 0 t : Vec Ideal S1x64x4096 .f32) (ix3 (0 : Fin 1) ch q) = V c main_v29 (ix3 b ch p) := by
  obtain ⟨e0, e1, e2, -, -, -, -, e7, e8⟩ := index_facts t
  unfold iblk1
  show V c main_v29 (((cfg1.win 0).blk t).view.emb (ix3 (0 : Fin 1) ch q)) = V c main_v29 (ix3 b ch p)
  refine congrArg (V c main_v29) (funext fun a => Fin.ext ?_)
  match a with
  | ⟨0, _⟩ => show win1_0.index t (0 : Fin 3) * 1 + 1 * 0 = b.val; rw [e0, e7, hb]; omega
  | ⟨1, _⟩ => show win1_0.index t (1 : Fin 3) * 64 + 1 * ch.val = ch.val; rw [e1]; omega
  | ⟨2, _⟩ => show win1_0.index t (2 : Fin 3) * 4096 + 1 * q.val = p.val; rw [e2, e8, hp]; omega

/-- The scatter window's block at point `t`, entry `(0, q, r)`: the scatter map at batch `t / 16`, position
    `(t % 16) · 4096 + q`, feature `r`. -/
theorem scatter_block_at (c : Dev nD) (t : Fin cfg1.N) (b : Fin 16) (hb : b.val = t.val / 16)
    (q : Fin 4096) (r : Fin 32) (p : Fin 65536) (hp : p.val = t.val % 16 * 4096 + q.val) :
    (iblk1 (F := Ideal) V c 1 t : Vec Ideal S1x4096x32 .f32) (ix3 (0 : Fin 1) q r) = V c main_v28 (ix3 b p r) := by
  obtain ⟨-, -, -, e3, e4, e5, -, e7, e8⟩ := index_facts t
  unfold iblk1
  show V c main_v28 (((cfg1.win 1).blk t).view.emb (ix3 (0 : Fin 1) q r)) = V c main_v28 (ix3 b p r)
  refine congrArg (V c main_v28) (funext fun a => Fin.ext ?_)
  match a with
  | ⟨0, _⟩ => show win1_1.index t (0 : Fin 3) * 1 + 1 * 0 = b.val; rw [e3, e7, hb]; omega
  | ⟨1, _⟩ => show win1_1.index t (1 : Fin 3) * 4096 + 1 * q.val = p.val; rw [e4, e8, hp]; omega
  | ⟨2, _⟩ => show win1_1.index t (2 : Fin 3) * 32 + 1 * r.val = r.val; rw [e5]; omega

/-- What point `t` writes back is block `t` of the join of the two arrays the region is entered with. -/
theorem flushed_eq (c : Dev nD) (t : Fin cfg1.N) :
    (dat1 (F := Ideal) V c).flushed 2 t
      = ((cfg1.win 2).blk t).view.read (Elt Ideal) (Cert.Bridge.assemble (V c main_v29) (V c main_v28)) := by
  show (cfg1.win 2).cut (grid1.coords t) ((dat1 (F := Ideal) V c).after 2 t) = _
  rw [after1_2]
  unfold outsAt1
  rw [tile_eq (F := Ideal) c (grid1.coords t) (ms1_0 t) (hs1_0 t) (ms1_1 t) (hs1_1 t) (ms1_2 t) (hs1_2 t)
    (iblk1 V c 0 t) (iblk1 V c 1 t)]
  have ht : t.val < 256 := Nat.lt_of_lt_of_eq t.isLt N_1
  obtain ⟨-, -, -, -, -, -, e6, e7, e8⟩ := index_facts t
  funext j
  obtain ⟨u, ch, q, rfl⟩ : ∃ (u : Fin 1) (ch : Fin 96) (q : Fin 4096), j = ix3 u ch q := ⟨j 0, j 1, j 2, eq_ix3 j⟩
  show joinAt (iblk1 (F := Ideal) V c 0 t) (iblk1 (F := Ideal) V c 1 t) ch q
    = Cert.Bridge.assemble (V c main_v29) (V c main_v28) (((cfg1.win 2).blk t).view.emb (ix3 u ch q))
  have hu : u.val = 0 := by omega
  have hq : q.val < 4096 := q.isLt
  refine (joinAt_eq_assembleAt (V c main_v29) (V c main_v28) (iblk1 (F := Ideal) V c 0 t) (iblk1 (F := Ideal) V c 1 t)
    (⟨t.val / 16, by omega⟩ : Fin 16) (t.val % 16)
    (fun ch' q' p' hp' => spatial_block_at V c t _ rfl ch' q' p' hp')
    (fun q' r' p' hp' => scatter_block_at V c t _ rfl q' r' p' hp')
    ch q (⟨t.val % 16 * 4096 + q.val, by omega⟩ : Fin 65536) rfl).trans ?_
  refine (assemble_at (V c main_v29) (V c main_v28) _ _ ch _ ?_ ?_ ?_).symm
  · show win1_2.index t (0 : Fin 3) * 1 + 1 * u.val = t.val / 16; rw [e7, hu]; omega
  · show win1_2.index t (1 : Fin 3) * 96 + 1 * ch.val = ch.val; rw [e6]; omega
  · show win1_2.index t (2 : Fin 3) * 4096 + 1 * q.val = t.val % 16 * 4096 + q.val; rw [e8]; omega

/-- An index of the result array is in point `t`'s block iff each coordinate is in the block's range on its axis. -/
theorem mem_blk (t : Fin cfg1.N) (i : S16x96x65536.Idx) :
    i ∈ ((cfg1.win 2).blk t).view.set ↔ ∀ a : Fin 3, win1_2.index t a * S1x96x4096.size a ≤ (i a).val
      ∧ (i a).val < win1_2.index t a * S1x96x4096.size a + S1x96x4096.size a := by
  show i ∈ ((View.whole main_v30).slice (win1_2.rect t)).set ↔ _
  rw [View.set_slice_whole, Rect.mem_set_unit]
  exact Iff.rfl

/-- Every entry `[b, ch, p]` of the result array is written back by the point of batch `b` and tile `p / 4096`. -/
theorem covered (i : S16x96x65536.Idx) :
    ∃ t : Fin cfg1.N, (cfg1.win 2).flush t = true ∧ i ∈ ((cfg1.win 2).blk t).view.set := by
  have h0 : (i 0).val < 16 := (i 0).isLt
  have h1 : (i 1).val < 96 := (i 1).isLt
  have h2 : (i 2).val < 65536 := (i 2).isLt
  obtain ⟨t, tv⟩ : ∃ t : Fin cfg1.N, t.val = (i 0).val * 16 + (i 2).val / 4096 :=
    ⟨⟨(i 0).val * 16 + (i 2).val / 4096, Nat.lt_of_lt_of_eq (by omega : _ < 256) N_1.symm⟩, rfl⟩
  obtain ⟨-, -, -, -, -, -, e6, e7, e8⟩ := index_facts t
  refine ⟨t, flush1_2 t, ?_⟩
  rw [mem_blk]
  intro a
  match a with
  | ⟨0, _⟩ =>
    show win1_2.index t (0 : Fin 3) * 1 ≤ (i 0).val ∧ (i 0).val < win1_2.index t (0 : Fin 3) * 1 + 1
    rw [e7, tv]; omega
  | ⟨1, _⟩ =>
    show win1_2.index t (1 : Fin 3) * 96 ≤ (i 1).val ∧ (i 1).val < win1_2.index t (1 : Fin 3) * 96 + 96
    rw [e6]; omega
  | ⟨2, _⟩ =>
    show win1_2.index t (2 : Fin 3) * 4096 ≤ (i 2).val ∧ (i 2).val < win1_2.index t (2 : Fin 3) * 4096 + 4096
    rw [e8, tv]; omega

/-- After all 256 points the result array is the join of the spatial array and the scatter map as the region found
    them: every block written back is a block of the join, and the blocks fill the array. -/
theorem arr_final (c : Dev nD) :
    (dat1 (F := Ideal) V c).arrAt 2 cfg1.N = Cert.Bridge.assemble (V c main_v29) (V c main_v28) :=
  (dat1 (F := Ideal) V c).arrAt_eq_of_cover 2 (Cert.Bridge.assemble (V c main_v29) (V c main_v28))
    (fun t _ => flushed_eq V c t) (fun i => covered i)

end Cert.KernelIdeal.Region1
end
-- ==== Proof.RefSide.lean ====
/-
  The reference program's result, read index by index at the exact instance.

  The reference computes three things in a row. First the projection: a contraction of the embeddings
  `[16, 512, 256]` with the weights `[256, 32]` over the shared axis of extent 256, plus the bias
  broadcast along the first two axes. Then a scatter of the projection's rows into a zero map
  `[16, 65536, 32]`. Last, pure data movement: the map is reshaped row-major to `[16, 256, 256, 32]`,
  its channel axis is moved to position 1, and the result is joined behind the 64 spatial channels.

  Two statements are proved here.

  * `proj_eq`: entry `[b, n, e]` of the projection is `(∑ k, x1[b, n, k] · x2[k, e]) + x3[e]`.
  * `result_apply`: entry `[b, ch, h, w]` of the result is the spatial input's entry `[b, ch, h, w]` when
    `ch < 64`, and otherwise the scatter map's entry `[b, h · 256 + w, ch - 64]`.

  The scatter itself is never opened: the result is stated over the scatter map as a whole.
-/
import proofs.«148303_j2216203125301_1_alg».proof.Defs
import proofs.«148303_j2216203125301_1_alg».proof.Proof.RefRunPatched
import proofs.«148303_j2216203125301_1_alg».proof.Proof.RefReadPatched
import proofs.«148303_j2216203125301_1_alg».proof.Proof.Spec

noncomputable section

namespace Cert.ReferenceIdeal.RefValue

open Idealize.ShloMosaic Idealize.ShloMosaic.ValueIdx Cert.ReferenceIdeal Cert.ReferenceIdeal.Gen
  Cert.ReferenceIdeal.ReadP

/-! ## The projection -/

/-- The contraction reads the left operand at `[b, n, k]`. -/
theorem lidx_eq (b : Fin 16) (n : Fin 512) (e : Fin 32) (k : Fin 256) :
    lidx_main_v0 (ix3 b n e) k = ix3 b n k :=
  funext fun a => Fin.ext (by
    match a with
    | ⟨0, _⟩ => rfl
    | ⟨1, _⟩ => rfl
    | ⟨2, _⟩ => rfl)

/-- The contraction reads the right operand at `[k, e]`. -/
theorem ridx_eq (b : Fin 16) (n : Fin 512) (e : Fin 32) (k : Fin 256) :
    ridx_main_v0 (ix3 b n e) k = ix2 k e :=
  funext fun a => Fin.ext (by
    match a with
    | ⟨0, _⟩ => rfl
    | ⟨1, _⟩ => rfl)

/-- The two broadcasts of the bias, composed, read it at `[e]`. -/
theorem bias_idx_eq (b : Fin 16) (n : Fin 512) (e : Fin 32) :
    idx_main_v1 (idx_main_v2 (ix3 b n e)) = ix1 e :=
  funext fun a => Fin.ext (by
    match a with
    | ⟨0, _⟩ => rfl)

/-- The reference's projection is the specification's: a row of the embeddings against a column of the
    weights, plus the bias entry. -/
theorem proj_eq (x1 : (⟨S16x512x256, .f32⟩ : BufTy).Contents (Elt Ideal))
    (x2 : (⟨S256x32, .f32⟩ : BufTy).Contents (Elt Ideal))
    (x3 : (⟨S32, .f32⟩ : BufTy).Contents (Elt Ideal)) :
    val_main_v3 (F := Ideal) x1 x2 x3 = Cert.Bridge.proj x1 x2 (fun e => x3 (ix1 e)) := by
  funext i
  obtain ⟨b, n, e, rfl⟩ : ∃ (b : Fin 16) (n : Fin 512) (e : Fin 32), i = ix3 b n e :=
    ⟨i 0, i 1, i 2, eq_ix3 i⟩
  rw [val_main_v3_apply, val_main_v0_apply, val_main_v2_apply, val_main_v1_apply]
  simp only [lidx_eq, ridx_eq, bias_idx_eq, Ideal.addf_def]
  rfl

/-! ## The data movement after the scatter -/

/-- The transpose `(0, 3, 1, 2)` followed by the row-major reshape of `[16, 65536, 32]` to
    `[16, 256, 256, 32]`: entry `[b, c, h, w]` of the transposed array comes from `[b, h · 256 + w, c]` of
    the map. The row-major position of `[b, h, w, c]` is `((b · 256 + h) · 256 + w) · 32 + c`; dividing it by
    `65536 · 32`, by `32` modulo `65536`, and taking it modulo `32` gives the three coordinates. -/
theorem move_idx_eq (b : Fin 16) (c : Fin 32) (h w : Fin 256) :
    idx_main_v31 (idx_main_v32 (ix4 b c h w)) = ix3 b ⟨h.val * 256 + w.val, by omega⟩ c := by
  have hb := b.isLt; have hc := c.isLt; have hh := h.isLt; have hw := w.isLt
  funext a
  refine Fin.ext ?_
  match a with
  | ⟨0, _⟩ =>
    show (((b.val * 256 + h.val) * 256 + w.val) * 32 + c.val) / 2097152 = b.val
    omega
  | ⟨1, _⟩ =>
    show (((b.val * 256 + h.val) * 256 + w.val) * 32 + c.val) / 32 % 65536 = h.val * 256 + w.val
    omega
  | ⟨2, _⟩ =>
    show (((b.val * 256 + h.val) * 256 + w.val) * 32 + c.val) % 32 = c.val
    omega

/-- The result at `[b, ch, h, w]`: the join along the channel axis takes the spatial input below channel 64
    and the moved scatter map, 64 channels further down, from channel 64 on. -/
theorem result_apply (x0 : (⟨S16x64x256x256, .f32⟩ : BufTy).Contents (Elt Ideal))
    (x1 : (⟨S16x512x256, .f32⟩ : BufTy).Contents (Elt Ideal))
    (x2 : (⟨S256x32, .f32⟩ : BufTy).Contents (Elt Ideal))
    (x3 : (⟨S32, .f32⟩ : BufTy).Contents (Elt Ideal))
    (x4 : (⟨S16x512x2, .i32⟩ : BufTy).Contents (Elt Ideal))
    (b : Fin 16) (ch : Fin 96) (h w : Fin 256) :
    val_main_v33 (F := Ideal) x0 x1 x2 x3 x4 (ix4 b ch h w)
      = Cert.Bridge.outAt x0 (val_main_v30 (F := Ideal) x1 x2 x3 x4) b ch h w := by
  unfold val_main_v33 Cert.Bridge.outAt
  by_cases hc : ch.val < 64
  · rw [dif_pos hc]
    exact concatenate_pair_apply_left 1 x0 (val_main_v32 (F := Ideal) x1 x2 x3 x4)
      concatenates_S16x64x256x256_S16x32x256x256_S16x96x256x256_d1 (ix4 b ch h w) rfl
      (ix4 b ⟨ch.val, hc⟩ h w) (fun a => by
        match a with
        | ⟨0, _⟩ => rfl
        | ⟨1, _⟩ => rfl
        | ⟨2, _⟩ => rfl
        | ⟨3, _⟩ => rfl)
  · rw [dif_neg hc]
    have hc' : ch.val - 64 < 32 := by have := ch.isLt; omega
    refine (concatenate_pair_apply_right 1 x0 (val_main_v32 (F := Ideal) x1 x2 x3 x4)
      concatenates_S16x64x256x256_S16x32x256x256_S16x96x256x256_d1 (ix4 b ch h w) rfl rfl
      (ix4 b ⟨ch.val - 64, hc'⟩ h w) (fun a ha => by
        match a with
        | ⟨0, _⟩ => rfl
        | ⟨1, _⟩ => exact absurd rfl ha
        | ⟨2, _⟩ => rfl
        | ⟨3, _⟩ => rfl)
      (by show ch.val - 64 + 64 = ch.val; omega)).trans ?_
    rw [val_main_v32_apply, val_main_v31_apply, move_idx_eq]

/-- The scatter map is the scatter of the projection's rows, at the computed positions, into the zero map. -/
theorem scatter_unfold (x1 : (⟨S16x512x256, .f32⟩ : BufTy).Contents (Elt Ideal))
    (x2 : (⟨S256x32, .f32⟩ : BufTy).Contents (Elt Ideal))
    (x3 : (⟨S32, .f32⟩ : BufTy).Contents (Elt Ideal))
    (x4 : (⟨S16x512x2, .i32⟩ : BufTy).Contents (Elt Ideal)) :
    val_main_v30 (F := Ideal) x1 x2 x3 x4
      = Host.scatter scatter_S16x65536x32_S16x512x2_S16x512x32_2_01_01_2 (fun _ b => b)
          (val_main_v13 (F := Ideal)) (val_main_v29 (F := Ideal) x4) (val_main_v3 (F := Ideal) x1 x2 x3) := rfl

end Cert.ReferenceIdeal.RefValue

end
-- ==== Proof.HostScatter.lean ====
/-
  The host stretch between the two kernels, read as one scatter.

  After the projection kernel the program computes, from the integer locations alone, a position for every
  (batch, entity) pair: each of the two location coordinates is clamped into 0 .. 255, the pair is flattened as
  row * 256 + column, and the batch number is put in front (both with the usual wrap of a negative index, which
  never fires here because the clamped values are not negative). It then writes row `[b, n, ·]` of the
  projection into an array of zeros `[16, 65536, 32]` at position `[b, position(b, n), ·]`, the last write
  winning where two entities share a position.

  The reference program computes its positions by the very same operations on the same locations, and scatters
  into the same zeros. So nothing of this arithmetic has to be opened: this module only shows that the buffer the
  join kernel reads is the scatter, with the reference's own position array and zero array as operands, of
  whatever the projection kernel left in its result array.
-/
import proofs.«148303_j2216203125301_1_alg».proof.Proof.Gen.KernelIdeal.Frame
import proofs.«148303_j2216203125301_1_alg».proof.Proof.HostMoves
import proofs.«148303_j2216203125301_1_alg».proof.Proof.RefReadPatched
import Idealize.ShloMosaic.Lib.StableHlo.Run

set_option maxRecDepth 65536

noncomputable section

namespace Cert.KernelIdeal.HostScatter

open Idealize.ShloMosaic Idealize.ShloMosaic.TcCoe Idealize.SL.Sem
open Idealize.ShloMosaic.StableHlo
open Cert.KernelIdeal Cert.KernelIdeal.Gen

variable {F : FTy → Type} [FloatOps F]
variable (m : (ℓ : Loc nD τ sig) → Buf (Elt F) ℓ) (ρ : Dev nD → PrngReg) (c : Dev nD)

set_option maxHeartbeats 4000000 in
/-- At the join kernel's entry its second operand is the scatter of the projection kernel's result: the rows of
    that result written, last write winning, into an array of zeros at the positions computed from the locations
    (each location clamped to the 256 x 256 grid and flattened as row * 256 + column, with the batch number as
    the leading coordinate). The positions are the same function of the locations as in the reference program. -/
theorem scatter_at_join : W7 m ρ c (Proc.devRef .tc main_v28)
    = Host.scatter scatter_S16x65536x32_S16x512x2_S16x512x32_2_01_01_2 (fun _ b => b)
        (Cert.ReferenceIdeal.ReadP.val_main_v13 (F := F))
        (Cert.ReferenceIdeal.ReadP.val_main_v29 (F := F) (m ((c : Thread nD τ).loc main_arg4)))
        (W2 m ρ c (Proc.devRef .tc main_v1)) := by
  rw [← HostMoves.loc_after_proj m ρ c]
  show StableHlo.after hostOps1_4 (StableHlo.after hostOps1_3 (StableHlo.after hostOps1_2 (StableHlo.after hostOps1_1
    (StableHlo.after hostOps1 (W2 m ρ c))))) (Proc.devRef .tc main_v28) = _
  after_results
  rfl

end Cert.KernelIdeal.HostScatter

end
-- ==== Proof.KernelValue.lean ====
/-
  The idealized kernel program's result as a function of its launch contents.

  The program's result array is followed back through its segments:

  * it is the joined array with its trailing axis split into a 256 x 256 grid;
  * the joined array is what the join kernel leaves: below channel 64 the flattened spatial input, from channel
    64 on the scatter map with its last two axes exchanged;
  * the flattened spatial input is the spatial input; the scatter map is the scatter of the projection kernel's
    result at positions computed from the locations;
  * the projection kernel's result is, entry by entry, a row of the embeddings against a column of the weights
    plus a bias entry.

  The reference program computes the same projection (read here through its one contraction and two broadcasts),
  applies the same scatter at the same positions, and moves the entries to the same places. Hence the two
  results are one function of the arguments, entry by entry. The only law of arithmetic used is that two
  spellings of one finite sum of products plus one addend are the same extended real: nothing is reordered,
  so no finiteness of the inputs is needed.
-/
import proofs.«148303_j2216203125301_1_alg».proof.Defs
import proofs.«148303_j2216203125301_1_alg».proof.Proof.Gen.KernelIdeal.Frame
import proofs.«148303_j2216203125301_1_alg».proof.Proof.Spec
import proofs.«148303_j2216203125301_1_alg».proof.Proof.HostMoves
import proofs.«148303_j2216203125301_1_alg».proof.Proof.RefRunPatched
import proofs.«148303_j2216203125301_1_alg».proof.Proof.RefReadPatched
import proofs.«148303_j2216203125301_1_alg».proof.Proof.Region0Value
import proofs.«148303_j2216203125301_1_alg».proof.Proof.Region1Value
import proofs.«148303_j2216203125301_1_alg».proof.Proof.RefSide
import proofs.«148303_j2216203125301_1_alg».proof.Proof.HostScatter

set_option maxRecDepth 16384

noncomputable section

namespace Cert.KernelIdeal.KernelValue

open Idealize.ShloMosaic Idealize.ShloMosaic.TcCoe Idealize.ShloMosaic.ValueIdx Idealize.SL.Sem
open Cert.KernelIdeal Cert.KernelIdeal.Gen
open Cert.ReferenceIdeal.ReadP (val_main_v3 val_main_v13 val_main_v29 val_main_v30 val_main_v33)

variable (m : (ℓ : Loc nD τ sig) → Buf (Elt Ideal) ℓ) (ρ : Dev nD → PrngReg) (c : Dev nD)

/-- The projection kernel's result array is the reference's projection of the launch contents: entry
    `[b, n, e]` of both is the row `[b, n, ·]` of the embeddings against the column `[·, e]` of the weights, plus
    the bias entry `e` (the kernel reads the bias through a row `[1, 32]`, the reference through two broadcasts). -/
theorem proj_value : W2 m ρ c (Proc.devRef .tc main_v1)
    = val_main_v3 (F := Ideal) (m ((c : Thread nD τ).loc main_arg1)) (m ((c : Thread nD τ).loc main_arg2))
        (m ((c : Thread nD τ).loc main_arg3)) := by
  rw [HostMoves.proj_at_exit, Region0.arr_final (V1 m ρ) c, Cert.ReferenceIdeal.RefValue.proj_eq]
  have e1 : V1 m ρ c main_arg1 = m ((c : Thread nD τ).loc main_arg1) := HostMoves.emb_at_entry m ρ c
  have e2 : V1 m ρ c main_arg2 = m ((c : Thread nD τ).loc main_arg2) := HostMoves.weights_at_entry m ρ c
  have e3 : (fun e : Fin 32 => V1 m ρ c main_v0 (ix2 (0 : Fin 1) e))
      = fun e : Fin 32 => m ((c : Thread nD τ).loc main_arg3) (ix1 e) := by
    funext e
    show W1 m ρ c (Proc.devRef .tc main_v0) (ix2 (0 : Fin 1) e) = _
    rw [HostMoves.bias_row m ρ c]
    exact HostMoves.row_of_vector _ _ e
  rw [e1, e2, e3]

/-- At the join kernel's entry its second operand is the reference's scatter map of the launch contents: the same
    scatter, into the same zeros, at the same positions, of equal projections. -/
theorem scatter_value : W7 m ρ c (Proc.devRef .tc main_v28)
    = val_main_v30 (F := Ideal) (m ((c : Thread nD τ).loc main_arg1)) (m ((c : Thread nD τ).loc main_arg2))
        (m ((c : Thread nD τ).loc main_arg3)) (m ((c : Thread nD τ).loc main_arg4)) := by
  rw [HostScatter.scatter_at_join m ρ c, proj_value m ρ c]
  rfl

/-- The kernel program's result is the reference's result of the same launch contents, entry by entry: below
    channel 64 both are the spatial input at `[b, ch, h, w]`; from channel 64 on both are the scatter map at
    `[b, h * 256 + w, ch - 64]`. -/
theorem result_value : W9 m ρ c (Proc.devRef .tc main_v31)
    = val_main_v33 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  funext i
  obtain ⟨b, ch, h, w, rfl⟩ : ∃ (b : Fin 16) (ch : Fin 96) (h w : Fin 256), i = ix4 b ch h w :=
    ⟨i 0, i 1, i 2, i 3, eq_ix4 i⟩
  rw [Cert.ReferenceIdeal.RefValue.result_apply]
  have hp : (h.val * 256 + w.val) < 65536 := by omega
  rw [HostMoves.result_is_reshape m ρ c,
    HostMoves.joined_unflattened _ _ b ch h w ⟨h.val * 256 + w.val, hp⟩ rfl,
    HostMoves.joined_at_exit m ρ c, Region1.arr_final (V7 m ρ) c, Cert.Bridge.assemble_apply]
  unfold Cert.Bridge.assembleAt Cert.Bridge.outAt
  by_cases hc : ch.val < 64
  · rw [dif_pos hc, dif_pos hc]
    show W7 m ρ c (Proc.devRef .tc main_v29) (ix3 b ⟨ch.val, hc⟩ ⟨h.val * 256 + w.val, hp⟩) = _
    rw [HostMoves.spatial_at_join m ρ c]
    exact HostMoves.spatial_flattened _ _ b ⟨ch.val, hc⟩ h w ⟨h.val * 256 + w.val, hp⟩ rfl
  · rw [dif_neg hc, dif_neg hc]
    show W7 m ρ c (Proc.devRef .tc main_v28) _ = _
    rw [scatter_value m ρ c]

end Cert.KernelIdeal.KernelValue

end
-- ==== Proof.Claims.lean ====
/-
  The five claims of the certificate.

  The three frames: the kernel program, as printed and idealized, runs to its end without a fault and leaves its
  five argument arrays as launched; so does the reference, a straight line of host operations. The idealization
  rewrote nothing, so it has nothing to preserve. And from memories that agree on the arguments the two idealized
  programs end with equal result arrays: both hold, at `[b, ch, h, w]`, the spatial input for `ch < 64` and
  otherwise the entry `[b, h * 256 + w, ch - 64]` of the scatter of the projected entity embeddings.
-/
import proofs.«148303_j2216203125301_1_alg».proof.Defs
import proofs.«148303_j2216203125301_1_alg».proof.Proof.Gen.KernelIdeal.Frame
import proofs.«148303_j2216203125301_1_alg».proof.Proof.Spec
import proofs.«148303_j2216203125301_1_alg».proof.Proof.HostMoves
import proofs.«148303_j2216203125301_1_alg».proof.Proof.RefRunPatched
import proofs.«148303_j2216203125301_1_alg».proof.Proof.RefReadPatched
import proofs.«148303_j2216203125301_1_alg».proof.Proof.Gen.Kernel
import proofs.«148303_j2216203125301_1_alg».proof.Proof.Gen.Kernel.Frame
import proofs.«148303_j2216203125301_1_alg».proof.Proof.Gen.KernelIdeal
import proofs.«148303_j2216203125301_1_alg».proof.Proof.Gen.ReferenceIdeal
import proofs.«148303_j2216203125301_1_alg».proof.Proof.Gen.Pre_finite_inputs
import proofs.«148303_j2216203125301_1_alg».proof.Proof.ValueRun
import proofs.«148303_j2216203125301_1_alg».proof.Proof.KernelValue

set_option maxRecDepth 16384

noncomputable section

namespace Cert.Proof.Claims

open Idealize.ShloMosaic Idealize.ShloMosaic.TcCoe Idealize.SL.Sem

/-- The kernel program as printed runs and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation of the kernel program: there is nothing to restate. -/
theorem preserves : Cert.preserves_Kernel_KernelIdeal := trivial

/-- From memories that agree on the five arguments both idealized programs run, and end with the same result
    array: the kernel program's is the contents its last host stretch leaves, which is the reference's result
    function of the launch contents (`KernelValue.result_value`), and the reference's run ends at that function
    of its own, equal, launch contents. -/
theorem algebraic : Cert.algebraic_KernelIdeal_ReferenceIdeal := by
  intro m ρ m' ρ' _ hagree
  refine ⟨fun c => Cert.KernelIdeal.Gen.W9 m ρ c (Proc.devRef .tc Cert.KernelIdeal.main_v31),
    Cert.KernelIdeal.ValueRun.run (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2.1, (hagree c).2.2.1, (hagree c).2.2.2.1, (hagree c).2.2.2.2]
  exact (Cert.ReferenceIdeal.ReadP.val_main_v33_eq (F := Ideal) _ _ _ _ _).trans
    (Cert.KernelIdeal.KernelValue.result_value m ρ c).symm

end Cert.Proof.Claims

end
-- ==== Proof.lean ====
/-
  The certificate: an entity-embedding scatter joined behind a spatial feature map.

  The kernel program projects 512 entity embeddings per batch to 32 features (one matrix product and a bias),
  scatters each projected row to the cell of a 256 x 256 grid given by the entity's clamped location, and
  joins the 32 scattered feature planes behind the 64 planes of the spatial input. It does the projection and the
  join in two tiled kernels and the scatter on the host; the reference does everything on the host. At exact
  arithmetic both compute, entry by entry, the same array: the proof is in the modules imported below, and this
  file only puts the five claims together under the programs' stated side conditions.
-/
import proofs.«148303_j2216203125301_1_alg».proof.Defs
import proofs.«148303_j2216203125301_1_alg».proof.Proof.Gen.Kernel
import proofs.«148303_j2216203125301_1_alg».proof.Proof.Gen.Kernel.Skeleton
import proofs.«148303_j2216203125301_1_alg».proof.Proof.Gen.Kernel.Launch
import proofs.«148303_j2216203125301_1_alg».proof.Proof.Gen.Kernel.Points
import proofs.«148303_j2216203125301_1_alg».proof.Proof.Gen.Kernel.Frame
import proofs.«148303_j2216203125301_1_alg».proof.Proof.Gen.KernelIdeal
import proofs.«148303_j2216203125301_1_alg».proof.Proof.Gen.KernelIdeal.Skeleton
import proofs.«148303_j2216203125301_1_alg».proof.Proof.Gen.KernelIdeal.Launch
import proofs.«148303_j2216203125301_1_alg».proof.Proof.Gen.KernelIdeal.Points
import proofs.«148303_j2216203125301_1_alg».proof.Proof.Gen.KernelIdeal.Frame
import proofs.«148303_j2216203125301_1_alg».proof.Proof.Gen.ReferenceIdeal
import proofs.«148303_j2216203125301_1_alg».proof.Proof.Gen.Pre_finite_inputs
import proofs.«148303_j2216203125301_1_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_kernel, Claims.frame_kernel_ideal, Claims.frame_reference, Claims.preserves, Claims.algebraic⟩

end Cert.Proof

end
